-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S2x640000 : Shape := ⟨2, ![2, 640000]⟩
abbrev S640000x128 : Shape := ⟨2, ![640000, 128]⟩
abbrev S1x64 : Shape := ⟨2, ![1, 64]⟩
abbrev S40000 : Shape := ⟨1, ![40000]⟩
abbrev S256x256 : Shape := ⟨2, ![256, 256]⟩
abbrev S256 : Shape := ⟨1, ![256]⟩
abbrev S384x256 : Shape := ⟨2, ![384, 256]⟩
abbrev S256x128 : Shape := ⟨2, ![256, 128]⟩
abbrev S128 : Shape := ⟨1, ![128]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S640000x128 : S_.BroadcastsInDim S640000x128 (![] : Fin 0 → Fin S640000x128.rank)
  reducesTo_S640000x128_S_d0_1 : S640000x128.ReducesTo [0, 1] S_
  bcast_S_S1x64 : S_.BroadcastsInDim S1x64 (![] : Fin 0 → Fin S1x64.rank)
  reducesTo_S1x64_S_d0_1 : S1x64.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S384x256 : S_.BroadcastsInDim S384x256 (![] : Fin 0 → Fin S384x256.rank)
  reducesTo_S384x256_S_d0_1 : S384x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg13 : FVec F S256x128 .f32) (main_arg14 : FVec F S128 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x128 .f32 := Host.absf main_arg13
  let main_cst_20 : FVec F S_ .f32 := constant S_ .f32 0x7F800000#32
  let main_v55 : FVec F S256x128 .f32 := broadcastInDim S256x128 ![] bcast_S_S256x128 main_cst_20
  let main_v56 : IVec S256x128 1 := cmpf .olt main_v54 main_v55
  let main_c_21 : IVec S_ 1 := constantI S_ 1 1#1
  let main_v57 : IVec S_ 1 := (fun x v => Host.reduce IntOp.andi x v reducesTo_S256x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  main_v63

def fn_part2 {F : FTy → Type} [FloatOps F] (main_arg9 : FVec F S256x256 .f32) (main_arg10 : FVec F S256 .f32) (main_arg11 : FVec F S384x256 .f32) (main_arg12 : FVec F S256 .f32) (main_arg13 : FVec F S256x128 .f32) (main_arg14 : FVec F S128 .f32) (main_v33 : IVec S_ 1) : IVec S_ 1 :=
  let main_v34 : FVec F S256x256 .f32 := Host.absf main_arg9
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S384x256 .f32 := Host.absf main_arg11
  let main_cst_16 : FVec F S_ .f32 := constant S_ .f32 0x7F800000#32
  let main_v45 : FVec F S384x256 .f32 := broadcastInDim S384x256 ![] bcast_S_S384x256 main_cst_16
  let main_v46 : IVec S384x256 1 := cmpf .olt main_v44 main_v45
  let main_c_17 : IVec S_ 1 := constantI S_ 1 1#1
  let main_v47 : IVec S_ 1 := (fun x v => Host.reduce IntOp.andi x v reducesTo_S384x256_S_d0_1 h_S_) main_v46 main_c_17
  let main_v48 : IVec S_ 1 := andi main_v43 main_v47
  let main_v49 : FVec F S256 .f32 := Host.absf main_arg12
  let main_cst_18 : FVec F S_ .f32 := constant S_ .f32 0x7F800000#32
  let main_v50 : FVec F S256 .f32 := broadcastInDim S256 ![] bcast_S_S256 main_cst_18
  fn_part3 (F := F) main_arg13 main_arg14 main_v48 main_v49 main_v50

def fn_part1 {F : FTy → Type} [FloatOps F] (main_arg6 : FVec F S256 .f32) (main_arg7 : FVec F S256x256 .f32) (main_arg8 : FVec F S256 .f32) (main_arg9 : FVec F S256x256 .f32) (main_arg10 : FVec F S256 .f32) (main_arg11 : FVec F S384x256 .f32) (main_arg12 : FVec F S256 .f32) (main_arg13 : FVec F S256x128 .f32) (main_arg14 : FVec F S128 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S40000x128 .f32) (main_arg1 : IVec S2x640000 32) (main_arg2 : FVec F S640000x128 .f32) (main_arg3 : FVec F S1x64 .f32) (main_arg4 : IVec S40000 32) (main_arg5 : FVec F S256x256 .f32) (main_arg6 : FVec F S256 .f32) (main_arg7 : FVec F S256x256 .f32) (main_arg8 : FVec F S256 .f32) (main_arg9 : FVec F S256x256 .f32) (main_arg10 : FVec F S256 .f32) (main_arg11 : FVec F S384x256 .f32) (main_arg12 : FVec F S256 .f32) (main_arg13 : FVec F S256x128 .f32) (main_arg14 : FVec F S128 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S640000x128 .f32 := Host.absf main_arg2
  let main_cst_0 : FVec F S_ .f32 := constant S_ .f32 0x7F800000#32
  let main_v5 : FVec F S640000x128 .f32 := broadcastInDim S640000x128 ![] bcast_S_S640000x128 main_cst_0
  let main_v6 : IVec S640000x128 1 := cmpf .olt main_v4 main_v5
  let main_c_1 : IVec S_ 1 := constantI S_ 1 1#1
  let main_v7 : IVec S_ 1 := (fun x v => Host.reduce IntOp.andi x v reducesTo_S640000x128_S_d0_1 h_S_) main_v6 main_c_1
  let main_v8 : IVec S_ 1 := andi main_v3 main_v7
  let main_v9 : FVec F S1x64 .f32 := Host.absf main_arg3
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_c_3 : IVec S_ 1 := constantI S_ 1 1#1
  let main_v12 : IVec S_ 1 := (fun x v => Host.reduce IntOp.andi x v reducesTo_S1x64_S_d0_1 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_arg7 main_arg8 main_arg9 main_arg10 main_arg11 main_arg12 main_arg13 main_arg14 main_v13 main_v16
-- ==== Kernel.lean ====
abbrev S40000x128 : Shape := ⟨2, ![40000, 128]⟩
abbrev S2x640000 : Shape := ⟨2, ![2, 640000]⟩
abbrev S640000x128 : Shape := ⟨2, ![640000, 128]⟩
abbrev S1x64 : Shape := ⟨2, ![1, 64]⟩
abbrev S40000 : Shape := ⟨1, ![40000]⟩
abbrev S256x256 : Shape := ⟨2, ![256, 256]⟩
abbrev S256 : Shape := ⟨1, ![256]⟩
abbrev S384x256 : Shape := ⟨2, ![384, 256]⟩
abbrev S256x128 : Shape := ⟨2, ![256, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x256 : Shape := ⟨2, ![640000, 256]⟩
abbrev S4000x128 : Shape := ⟨2, ![4000, 128]⟩
abbrev S4000x256 : Shape := ⟨2, ![4000, 256]⟩
abbrev S1x256 : Shape := ⟨2, ![1, 256]⟩
abbrev S40000x256 : Shape := ⟨2, ![40000, 256]⟩
abbrev S40000x1 : Shape := ⟨2, ![40000, 1]⟩
abbrev S2000x128 : Shape := ⟨2, ![2000, 128]⟩
abbrev S2000x256 : Shape := ⟨2, ![2000, 256]⟩
abbrev S2000x384 : Shape := ⟨2, ![2000, 384]⟩
abbrev S1x128 : Shape := ⟨2, ![1, 128]⟩

abbrev nBuf : Space → Nat
  | .hbm => 51
  | .vmem => 22
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S640000x128, .f32⟩
  | .hbm, ⟨3, _⟩ => ⟨S1x64, .f32⟩
  | .hbm, ⟨4, _⟩ => ⟨S40000, .i32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S384x256, .f32⟩
  | .hbm, ⟨12, _⟩ => ⟨S256, .f32⟩
  | .hbm, ⟨13, _⟩ => ⟨S256x128, .f32⟩
  | .hbm, ⟨14, _⟩ => ⟨S128, .f32⟩
  | .hbm, ⟨15, _⟩ => ⟨S1x640000, .i32⟩
  | .hbm, ⟨16, _⟩ => ⟨S640000, .i32⟩
  | .hbm, ⟨17, _⟩ => ⟨S1x640000, .i32⟩
  | .hbm, ⟨18, _⟩ => ⟨S640000, .i32⟩
  | .hbm, ⟨19, _⟩ => ⟨S_, .i32⟩
  | .hbm, ⟨20, _⟩ => ⟨S640000, .i32⟩
  | .hbm, ⟨21, _⟩ => ⟨S640000, .i1⟩
  | .hbm, ⟨22, _⟩ => ⟨S_, .i32⟩
  | .hbm, ⟨23, _⟩ => ⟨S640000, .i32⟩
  | .hbm, ⟨24, _⟩ => ⟨S640000, .i32⟩
  | .hbm, ⟨25, _⟩ => ⟨S640000, .i32⟩
  | .hbm, ⟨26, _⟩ => ⟨S640000x1, .i32⟩
  | .hbm, ⟨27, _⟩ => ⟨S640000x128, .f32⟩
  | .hbm, ⟨28, _⟩ => ⟨S256x256, .bf16⟩
  | .hbm, ⟨29, _⟩ => ⟨S256x256, .bf16⟩
  | .hbm, ⟨30, _⟩ => ⟨S256x256, .bf16⟩
  | .hbm, ⟨31, _⟩ => ⟨S640000x256, .f32⟩
  | .hbm, ⟨32, _⟩ => ⟨S_, .f32⟩
  | .hbm, ⟨33, _⟩ => ⟨S40000x256, .f32⟩
  | .hbm, ⟨34, _⟩ => ⟨S640000x1, .i32⟩
  | .hbm, ⟨35, _⟩ => ⟨S40000x256, .f32⟩
  | .hbm, ⟨36, _⟩ => ⟨S_, .f32⟩
  | .hbm, ⟨37, _⟩ => ⟨S640000, .f32⟩
  | .hbm, ⟨38, _⟩ => ⟨S_, .f32⟩
  | .hbm, ⟨39, _⟩ => ⟨S40000, .f32⟩
  | .hbm, ⟨40, _⟩ => ⟨S640000x1, .i32⟩
  | .hbm, ⟨41, _⟩ => ⟨S40000, .f32⟩
  | .hbm, ⟨42, _⟩ => ⟨S_, .f32⟩
  | .hbm, ⟨43, _⟩ => ⟨S40000, .f32⟩
  | .hbm, ⟨44, _⟩ => ⟨S40000, .f32⟩
  | .hbm, ⟨45, _⟩ => ⟨S40000x1, .f32⟩
  | .hbm, ⟨46, _⟩ => ⟨S40000x256, .f32⟩
  | .hbm, ⟨47, _⟩ => ⟨S40000x256, .f32⟩
  | .hbm, ⟨48, _⟩ => ⟨S384x256, .bf16⟩
  | .hbm, ⟨49, _⟩ => ⟨S256x128, .bf16⟩
  | .hbm, ⟨50, _⟩ => ⟨S40000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S256x256, .bf16⟩
  | .local _ .vmem, ⟨5, _⟩ => ⟨S256, .f32⟩
  | .local _ .vmem, ⟨6, _⟩ => ⟨S256x256, .bf16⟩
  | .local _ .vmem, ⟨7, _⟩ => ⟨S256, .f32⟩
  | .local _ .vmem, ⟨8, _⟩ => ⟨S256x256, .bf16⟩
  | .local _ .vmem, ⟨9, _⟩ => ⟨S256, .f32⟩
  | .local _ .vmem, ⟨10, _⟩ => ⟨S4000x256, .f32⟩
  | .local _ .vmem, ⟨11, _⟩ => ⟨S4000x256, .f32⟩
  | .local _ .vmem, ⟨12, _⟩ => ⟨S2000x128, .f32⟩
  | .local _ .vmem, ⟨13, _⟩ => ⟨S2000x128, .f32⟩
  | .local _ .vmem, ⟨14, _⟩ => ⟨S2000x256, .f32⟩
  | .local _ .vmem, ⟨15, _⟩ => ⟨S2000x256, .f32⟩
  | .local _ .vmem, ⟨16, _⟩ => ⟨S384x256, .bf16⟩
  | .local _ .vmem, ⟨17, _⟩ => ⟨S256, .f32⟩
  | .local _ .vmem, ⟨18, _⟩ => ⟨S256x128, .bf16⟩
  | .local _ .vmem, ⟨19, _⟩ => ⟨S128, .f32⟩
  | .local _ .vmem, ⟨20, _⟩ => ⟨S2000x128, .f32⟩
  | .local _ .vmem, ⟨21, _⟩ => ⟨S2000x128, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_1 : Ref sig .tc := ⟨.hbm, 36, rfl⟩
abbrev main_v18 : Ref sig .tc := ⟨.hbm, 37, rfl⟩
abbrev main_cst_2 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_3 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![160], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4000x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S384x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bitsLt_bf16_f32 : FTy.bits .bf16 < FTy.bits .f32
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  concatenates_S4000x128_S4000x128_S4000x256_d1 : Shape.Concatenates [S4000x128, S4000x128] S4000x256 1
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256_S256_0 : ∀ a, (![0] : Fin 1 → Nat) a + S256.size a ≤ S256.size a
  h_S256 : 0 < S256.numel
  shapeCasts_S256_S1x256 : S256.ShapeCasts S1x256
  broadcasts_S1x256_S4000x256 : S1x256.Broadcasts S4000x256
  inb_S4000x256_S4000x256_0_0 : ∀ a, (![0, 0] : Fin 2 → Nat) a + S4000x256.size a ≤ S4000x256.size a
  h_S4000x256 : 0 < S4000x256.numel
  bcast_S_S40000x256 : S_.BroadcastsInDim S40000x256 (![] : Fin 0 → Fin S40000x256.rank)
  bcast_S_S40000 : S_.BroadcastsInDim S40000 (![] : Fin 0 → Fin S40000.rank)
  bcast_S40000_S40000x1_0 : S40000.BroadcastsInDim S40000x1 (![0] : Fin 1 → Fin S40000x1.rank)
  bcast_S40000x1_S40000x256_0_1 : S40000x1.BroadcastsInDim S40000x256 (![0, 1] : Fin 2 → Fin S40000x256.rank)
  inb_S2000x128_S2000x128_0_0 : ∀ a, (![0, 0] : Fin 2 → Nat) a + S2000x128.size a ≤ S2000x128.size a
  h_S2000x128 : 0 < S2000x128.numel
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  concatenates_S2000x128_S2000x256_S2000x384_d1 : Shape.Concatenates [S2000x128, S2000x256] S2000x384 1
  inb_S384x256_S384x256_0_0 : ∀ a, (![0, 0] : Fin 2 → Nat) a + S384x256.size a ≤ S384x256.size a
  h_S384x256 : 0 < S384x256.numel
  shapeCasts_S384x256_S384x256 : S384x256.ShapeCasts S384x256
  broadcasts_S1x256_S2000x256 : S1x256.Broadcasts S2000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  gather_S40000x128_S640000x1_S640000x128_1_0_n_n_0_1_1128_wf : GatherDims.WF S40000x128 S640000x1 S640000x128 [1] [0] [] [0] [] 1 ![1, 128]
  dot_S4000x256_S256x256_S4000x256_1_0_0_1_n_n_wf : DotDims.WF S4000x256 S256x256 S4000x256 [1] [0] [0] [1] [] []
  scatter_S40000x256_S640000x1_S640000x256_1_0_0_1_wf : ScatterDims.WF S40000x256 S640000x1 S640000x256 [1] [0] [0] 1
  scatter_S40000_S640000x1_S640000_n_0_0_1_wf : ScatterDims.WF S40000 S640000x1 S640000 [] [0] [0] 1
  dot_S2000x384_S384x256_S2000x256_1_0_0_1_n_n_wf : DotDims.WF S2000x384 S384x256 S2000x256 [1] [0] [0] [1] [] []
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S640000x128.size a
  hwx0_0 : ∀ i : grid0.Coords, EltTy.bits .f32 = 32 ∨ (Rect.block (s := S640000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S640000x128.size a
  hwx0_1 : ∀ i : grid0.Coords, EltTy.bits .f32 = 32 ∨ (Rect.block (s := S640000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .bf16 = 32 ∨ (Rect.block (s := S256x256) S256x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4000x256.size a ≤ S640000x256.size a
  hwx0_8 : ∀ i : grid0.Coords, EltTy.bits .f32 = 32 ∨ (Rect.block (s := S640000x256) S4000x256.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S40000x128.size a
  hwx1_0 : ∀ i : grid1.Coords, EltTy.bits .f32 = 32 ∨ (Rect.block (s := S40000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S40000x256.size a
  hwx1_1 : ∀ i : grid1.Coords, EltTy.bits .f32 = 32 ∨ (Rect.block (s := S40000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S384x256.size a ≤ S384x256.size a
  hwx1_2 : ∀ i : grid1.Coords, EltTy.bits .bf16 = 32 ∨ (Rect.block (s := S384x256) S384x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256.size a ≤ S256.size a
  hwx1_3 : ∀ i : grid1.Coords, EltTy.bits .f32 = 32 ∨ (Rect.block (s := S256) S256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x128.size a ≤ S256x128.size a
  hwx1_4 : ∀ i : grid1.Coords, EltTy.bits .bf16 = 32 ∨ (Rect.block (s := S256x128) S256x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S40000x128.size a
  hwx1_6 : ∀ i : grid1.Coords, EltTy.bits .f32 = 32 ∨ (Rect.block (s := S40000x128) S2000x128.size (cc1_transform_6 i) (hinb1_6 i)).WholeWords (EltTy.packing .f32)

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf
def scatter_S40000x256_S640000x1_S640000x256_1_0_0_1 : ScatterDims S40000x256 S640000x1 S640000x256 where
  updateWindowDims := [1]
  insertedWindowDims := [0]
  scatterDimsToOperandDims := [0]
  indexVectorDim := 1
  wf := scatter_S40000x256_S640000x1_S640000x256_1_0_0_1_wf
def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def dot_S2000x384_S384x256_S2000x256_1_0_0_1_n_n : DotDims S2000x384 S384x256 S2000x256 where
  lhsContracting := [1]
  rhsContracting := [0]
  lhsNonContracting := [0]
  rhsNonContracting := [1]
  lhsBatch := []
  rhsBatch := []
  wf := dot_S2000x384_S384x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_v10) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg10) S256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v14) S4000x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S384x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg12) S256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S256x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg14) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v29) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S40000x128 : Shape := ⟨2, ![40000, 128]⟩
abbrev S2x640000 : Shape := ⟨2, ![2, 640000]⟩
abbrev S640000x128 : Shape := ⟨2, ![640000, 128]⟩
abbrev S1x64 : Shape := ⟨2, ![1, 64]⟩
abbrev S40000 : Shape := ⟨1, ![40000]⟩
abbrev S256x256 : Shape := ⟨2, ![256, 256]⟩
abbrev S256 : Shape := ⟨1, ![256]⟩
abbrev S384x256 : Shape := ⟨2, ![384, 256]⟩
abbrev S256x128 : Shape := ⟨2, ![256, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x256 : Shape := ⟨2, ![640000, 256]⟩
abbrev S1x256 : Shape := ⟨2, ![1, 256]⟩
abbrev S40000x256 : Shape := ⟨2, ![40000, 256]⟩
abbrev S40000x1 : Shape := ⟨2, ![40000, 1]⟩
abbrev S40000x384 : Shape := ⟨2, ![40000, 384]⟩
abbrev S1x128 : Shape := ⟨2, ![1, 128]⟩

abbrev nBuf : Space → Nat
  | .hbm => 75
  | .vmem => 0
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S640000x128, .f32⟩
  | .hbm, ⟨3, _⟩ => ⟨S1x64, .f32⟩
  | .hbm, ⟨4, _⟩ => ⟨S40000, .i32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S384x256, .f32⟩
  | .hbm, ⟨12, _⟩ => ⟨S256, .f32⟩
  | .hbm, ⟨13, _⟩ => ⟨S256x128, .f32⟩
  | .hbm, ⟨14, _⟩ => ⟨S128, .f32⟩
  | .hbm, ⟨15, _⟩ => ⟨S1x640000, .i32⟩
  | .hbm, ⟨16, _⟩ => ⟨S640000, .i32⟩
  | .hbm, ⟨17, _⟩ => ⟨S1x640000, .i32⟩
  | .hbm, ⟨18, _⟩ => ⟨S640000, .i32⟩
  | .hbm, ⟨19, _⟩ => ⟨S_, .i32⟩
  | .hbm, ⟨20, _⟩ => ⟨S640000, .i32⟩
  | .hbm, ⟨21, _⟩ => ⟨S640000, .i1⟩
  | .hbm, ⟨22, _⟩ => ⟨S_, .i32⟩
  | .hbm, ⟨23, _⟩ => ⟨S640000, .i32⟩
  | .hbm, ⟨24, _⟩ => ⟨S640000, .i32⟩
  | .hbm, ⟨25, _⟩ => ⟨S640000, .i32⟩
  | .hbm, ⟨26, _⟩ => ⟨S640000x1, .i32⟩
  | .hbm, ⟨27, _⟩ => ⟨S640000x128, .f32⟩
  | .hbm, ⟨28, _⟩ => ⟨S640000x256, .f32⟩
  | .hbm, ⟨29, _⟩ => ⟨S640000x256, .f32⟩
  | .hbm, ⟨30, _⟩ => ⟨S1x256, .f32⟩
  | .hbm, ⟨31, _⟩ => ⟨S640000x256, .f32⟩
  | .hbm, ⟨32, _⟩ => ⟨S640000x256, .f32⟩
  | .hbm, ⟨33, _⟩ => ⟨S_, .f32⟩
  | .hbm, ⟨34, _⟩ => ⟨S640000x256, .f32⟩
  | .hbm, ⟨35, _⟩ => ⟨S640000x256, .f32⟩
  | .hbm, ⟨36, _⟩ => ⟨S640000x256, .f32⟩
  | .hbm, ⟨37, _⟩ => ⟨S1x256, .f32⟩
  | .hbm, ⟨38, _⟩ => ⟨S640000x256, .f32⟩
  | .hbm, ⟨39, _⟩ => ⟨S640000x256, .f32⟩
  | .hbm, ⟨40, _⟩ => ⟨S_, .f32⟩
  | .hbm, ⟨41, _⟩ => ⟨S640000x256, .f32⟩
  | .hbm, ⟨42, _⟩ => ⟨S640000x256, .f32⟩
  | .hbm, ⟨43, _⟩ => ⟨S640000x256, .f32⟩
  | .hbm, ⟨44, _⟩ => ⟨S1x256, .f32⟩
  | .hbm, ⟨45, _⟩ => ⟨S640000x256, .f32⟩
  | .hbm, ⟨46, _⟩ => ⟨S640000x256, .f32⟩
  | .hbm, ⟨47, _⟩ => ⟨S_, .f32⟩
  | .hbm, ⟨48, _⟩ => ⟨S40000x256, .f32⟩
  | .hbm, ⟨49, _⟩ => ⟨S640000x1, .i32⟩
  | .hbm, ⟨50, _⟩ => ⟨S40000x256, .f32⟩
  | .hbm, ⟨51, _⟩ => ⟨S_, .f32⟩
  | .hbm, ⟨52, _⟩ => ⟨S640000, .f32⟩
  | .hbm, ⟨53, _⟩ => ⟨S_, .f32⟩
  | .hbm, ⟨54, _⟩ => ⟨S40000, .f32⟩
  | .hbm, ⟨55, _⟩ => ⟨S640000x1, .i32⟩
  | .hbm, ⟨56, _⟩ => ⟨S40000, .f32⟩
  | .hbm, ⟨57, _⟩ => ⟨S_, .f32⟩
  | .hbm, ⟨58, _⟩ => ⟨S40000, .f32⟩
  | .hbm, ⟨59, _⟩ => ⟨S40000, .f32⟩
  | .hbm, ⟨60, _⟩ => ⟨S40000x1, .f32⟩
  | .hbm, ⟨61, _⟩ => ⟨S40000x256, .f32⟩
  | .hbm, ⟨62, _⟩ => ⟨S40000x256, .f32⟩
  | .hbm, ⟨63, _⟩ => ⟨S40000x384, .f32⟩
  | .hbm, ⟨64, _⟩ => ⟨S40000x256, .f32⟩
  | .hbm, ⟨65, _⟩ => ⟨S1x256, .f32⟩
  | .hbm, ⟨66, _⟩ => ⟨S40000x256, .f32⟩
  | .hbm, ⟨67, _⟩ => ⟨S40000x256, .f32⟩
  | .hbm, ⟨68, _⟩ => ⟨S_, .f32⟩
  | .hbm, ⟨69, _⟩ => ⟨S40000x256, .f32⟩
  | .hbm, ⟨70, _⟩ => ⟨S40000x256, .f32⟩
  | .hbm, ⟨71, _⟩ => ⟨S40000x128, .f32⟩
  | .hbm, ⟨72, _⟩ => ⟨S1x128, .f32⟩
  | .hbm, ⟨73, _⟩ => ⟨S40000x128, .f32⟩
  | .hbm, ⟨74, _⟩ => ⟨S40000x128, .f32⟩
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_call0_cst : Ref sig .tc := ⟨.hbm, 33, rfl⟩
abbrev main_call0_v0 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_call1_cst : Ref sig .tc := ⟨.hbm, 40, rfl⟩
abbrev main_call1_v0 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_1 : Ref sig .tc := ⟨.hbm, 51, rfl⟩
abbrev main_v29 : Ref sig .tc := ⟨.hbm, 52, rfl⟩
abbrev main_cst_2 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_3 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_call2_cst : Ref sig .tc := ⟨.hbm, 68, rfl⟩
abbrev main_call2_v0 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  concatenates_S640000x128_S640000x128_S640000x256_d1 : Shape.Concatenates [S640000x128, S640000x128] S640000x256 1
  bcast_S256_S1x256_1 : S256.BroadcastsInDim S1x256 (![1] : Fin 1 → Fin S1x256.rank)
  bcast_S1x256_S640000x256_0_1 : S1x256.BroadcastsInDim S640000x256 (![0, 1] : Fin 2 → Fin S640000x256.rank)
  bcast_S_S640000x256 : S_.BroadcastsInDim S640000x256 (![] : Fin 0 → Fin S640000x256.rank)
  bcast_S_S40000x256 : S_.BroadcastsInDim S40000x256 (![] : Fin 0 → Fin S40000x256.rank)
  bcast_S_S40000 : S_.BroadcastsInDim S40000 (![] : Fin 0 → Fin S40000.rank)
  bcast_S40000_S40000x1_0 : S40000.BroadcastsInDim S40000x1 (![0] : Fin 1 → Fin S40000x1.rank)
  bcast_S40000x1_S40000x256_0_1 : S40000x1.BroadcastsInDim S40000x256 (![0, 1] : Fin 2 → Fin S40000x256.rank)
  concatenates_S40000x128_S40000x256_S40000x384_d1 : Shape.Concatenates [S40000x128, S40000x256] S40000x384 1
  bcast_S1x256_S40000x256_0_1 : S1x256.BroadcastsInDim S40000x256 (![0, 1] : Fin 2 → Fin S40000x256.rank)
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  gather_S40000x128_S640000x1_S640000x128_1_0_n_n_0_1_1128_wf : GatherDims.WF S40000x128 S640000x1 S640000x128 [1] [0] [] [0] [] 1 ![1, 128]
  dot_S640000x256_S256x256_S640000x256_1_0_0_1_n_n_wf : DotDims.WF S640000x256 S256x256 S640000x256 [1] [0] [0] [1] [] []
  scatter_S40000x256_S640000x1_S640000x256_1_0_0_1_wf : ScatterDims.WF S40000x256 S640000x1 S640000x256 [1] [0] [0] 1
  scatter_S40000_S640000x1_S640000_n_0_0_1_wf : ScatterDims.WF S40000 S640000x1 S640000 [] [0] [0] 1
  dot_S40000x384_S384x256_S40000x256_1_0_0_1_n_n_wf : DotDims.WF S40000x384 S384x256 S40000x256 [1] [0] [0] [1] [] []
  dot_S40000x256_S256x128_S40000x128_1_0_0_1_n_n_wf : DotDims.WF S40000x256 S256x128 S40000x128 [1] [0] [0] [1] [] []

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def dot_S640000x256_S256x256_S640000x256_1_0_0_1_n_n : DotDims S640000x256 S256x256 S640000x256 where
  lhsContracting := [1]
  rhsContracting := [0]
  lhsNonContracting := [0]
  rhsNonContracting := [1]
  lhsBatch := []
  rhsBatch := []
  wf := dot_S640000x256_S256x256_S640000x256_1_0_0_1_n_n_wf
def scatter_S40000x256_S640000x1_S640000x256_1_0_0_1 : ScatterDims S40000x256 S640000x1 S640000x256 where
  updateWindowDims := [1]
  insertedWindowDims := [0]
  scatterDimsToOperandDims := [0]
  indexVectorDim := 1
  wf := scatter_S40000x256_S640000x1_S640000x256_1_0_0_1_wf
def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def dot_S40000x384_S384x256_S40000x256_1_0_0_1_n_n : DotDims S40000x384 S384x256 S40000x256 where
  lhsContracting := [1]
  rhsContracting := [0]
  lhsNonContracting := [0]
  rhsNonContracting := [1]
  lhsBatch := []
  rhsBatch := []
  wf := dot_S40000x384_S384x256_S40000x256_1_0_0_1_n_n_wf
def dot_S40000x256_S256x128_S40000x128_1_0_0_1_n_n : DotDims S40000x256 S256x128 S40000x128 where
  lhsContracting := [1]
  rhsContracting := [0]
  lhsNonContracting := [0]
  rhsNonContracting := [1]
  lhsBatch := []
  rhsBatch := []
  wf := dot_S40000x256_S256x128_S40000x128_1_0_0_1_n_n_wf

class Facts : Prop extends Facts₀ where

variable [Facts]
-- ==== Proof.KernelLaunch.lean ====
/-
  The idealized kernel's whole run with its LAST BOUNDARY read back.  @main is four segments: the host
  operations that slice the edge list and gather the source rows, the edge network (160 blocks of 4000 edges), the host
  operations that scatter-add the messages to their destination nodes and divide by the clamped counts, and the node
  network (20 blocks of 2000 nodes).  The buffer contents at each boundary are a fold from the launch memory
  (`Gen.W0` … `Gen.W4`); here every weakly fair execution is shown to end with EVERY unscoped buffer holding the last
  boundary's contents `Gen.W4`, so that the result array can be read off the fold afterwards.
-/
import proofs.«177631_j13486197310233_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every unscoped buffer of every core at the
    contents the fold through the four segments gives it. -/
theorem run_boundary : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

end Cert.KernelIdeal.Whole

end
-- ==== Proof.LibDenseRow.lean ====
/-
  A DENSE LAYER READ ROW BY ROW, at the ideal values.

  A dense layer sends a row `x` of `K` numbers to the row `j ↦ (∑ k, x k · w k j) + b j` of `N` numbers: each output row
  depends on the same row of the input and on nothing else of it.  Two spellings of it occur in printed programs and both
  are read here at an index `(p, c)` given by its coordinates:
  • on the vector unit, a matrix product into a zero accumulator plus a bias vector `[N]` cast to `[1, N]` and
    broadcast over the rows (`klayer_apply`);
  • on the host, a `dot_general` contracting the operand's columns with the weight's rows plus the bias broadcast
    first to `[1, N]` and then over the rows (`hlayer_apply`).
  Both take the facts about the contraction's dimension numbers as hypotheses (one contracted axis of extent `K`; the
  operand indices at output index `(p, c)` and contraction index `k` are `(p, k)` and `(k, c)`), which a program's
  record gives by evaluation.  Also: two arrays joined along the columns read at `(p, k)` (`concat_cols_apply`), the
  rows side by side (`cat`).  No algebra of the extended reals is used: no sum is regrouped.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.DenseRow

open Idealize.ShloMosaic Idealize.ShloMosaic.ValueIdx

/-! ## Rows -/

/-- Two rows side by side: the first `A` entries are `x`'s, the next `B` are `y`'s. -/
def cat {A B C : ℕ} (hC : C = A + B) (x : Fin A → EReal) (y : Fin B → EReal) (k : Fin C) : EReal :=
  if h : k.val < A then x ⟨k.val, h⟩ else y ⟨k.val - A, by have := k.isLt; omega⟩

/-- A dense layer on one row: `j ↦ (∑ k, x k · w k j) + b j`. -/
def layer {K N : ℕ} (x : Fin K → EReal) (w : Fin K → Fin N → EReal) (b : Fin N → EReal) (j : Fin N) : EReal :=
  (∑ k : Fin K, x k * w k j) + b j

/-- The activation on one row: the larger of each entry and the level `z` (zero, for a rectifier). -/
def act {N : ℕ} (z : EReal) (x : Fin N → EReal) (j : Fin N) : EReal := max (x j) z

/-! ## Two arrays joined along the columns -/

/-- `[R, A]` and `[R, B]` joined along axis 1, read at `(p, k)`: row `p` of the first beside row `p` of the second. -/
theorem concat_cols_apply {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) (p : Fin R) (k : Fin C) :
    concatenate ⟨2, ![R, C]⟩ (1 : Fin 2) [⟨⟨2, ![R, A]⟩, x₁⟩, ⟨⟨2, ![R, B]⟩, x₂⟩] h (ix2 p k)
      = cat hC (fun a => x₁ (ix2 p a)) (fun b => x₂ (ix2 p b)) k := by
  unfold cat
  by_cases hk : k.val < A
  · rw [dif_pos hk]
    refine concatenate_pair_apply_left (1 : Fin 2) x₁ x₂ h (ix2 p k) rfl (ix2 p ⟨k.val, hk⟩) fun b => ?_
    match b with
    | ⟨0, _⟩ => rfl
    | ⟨1, _⟩ => rfl
  · rw [dif_neg hk]
    have hkC := k.isLt
    refine concatenate_pair_apply_right (1 : Fin 2) x₁ x₂ h (ix2 p k) rfl rfl (ix2 p ⟨k.val - A, by omega⟩) (fun b hb => ?_) ?_
    · match b with
      | ⟨0, _⟩ => rfl
      | ⟨1, _⟩ => exact absurd rfl hb
    · show (k.val - A) + A = k.val
      omega

/-! ## The contraction as a sum over the contracted extent -/

/-- The sum over a one-axis contraction index, re-indexed by that axis's coordinate. -/
theorem contr_sum {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (l : FVec Ideal ⟨2, ![R, K]⟩ φ₁) (r : FVec Ideal ⟨2, ![K, N]⟩ φ₂) (p : Fin R) (c : Fin N) :
    (∑ q : d.contr.Idx, l (d.lhsIdx (ix2 p c) q) * r (d.rhsIdx (ix2 p c) q)) = ∑ k : Fin K, l (ix2 p k) * r (ix2 k c) := by
  rw [← Equiv.sum_comp (contrEquiv1 d K hr hs).symm]
  exact Finset.sum_congr rfl fun k _ => by rw [hl p c k, hrr p c k]

/-! ## The layer on the vector unit -/

/-- A matrix product into the zero accumulator plus the bias `[N]` cast to `[1, N]` and broadcast over the rows, read
    at `(p, c)`: the dense layer of row `p`. -/
theorem klayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩)
    (p : Fin R) (c : Fin N) :
    addf (matmul d prec a (shapeCast ⟨2, ![K, N]⟩ w hw) (constant ⟨2, ![R, N]⟩ .f32 0x00000000#32))
        (broadcastTo ⟨2, ![R, N]⟩ (shapeCast ⟨2, ![1, N]⟩ b hc) hb) (ix2 p c)
      = layer (fun k => a (ix2 p k)) (fun k j => w (ix2 k j)) (fun j => b (ix1 j)) c := by
  show FloatOps.matmul d prec a (shapeCast ⟨2, ![K, N]⟩ w hw) (constant ⟨2, ![R, N]⟩ .f32 0x00000000#32) (ix2 p c)
      + broadcastTo ⟨2, ![R, N]⟩ (shapeCast ⟨2, ![1, N]⟩ b hc) hb (ix2 p c) = _
  rw [Ideal.matmul_constant_zero_apply, contr_sum d hr hs hl hrr, shapeCast_self, broadcastTo_1b_ab_apply,
    shapeCast_a_1a_apply]
  rfl

/-! ## The layer on the host -/

/-- A `dot_general` contracting the operand's columns with the weight's rows plus the bias broadcast to `[1, N]` and then
    over the rows, read at `(p, c)`: the dense layer of row `p`. -/
theorem hlayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1])
    (p : Fin R) (c : Fin N) :
    addf (Host.dotGeneral d prec a w)
        (broadcastInDim ⟨2, ![R, N]⟩ ![0, 1] h2 (broadcastInDim ⟨2, ![1, N]⟩ ![1] h1 b)) (ix2 p c)
      = layer (fun k => a (ix2 p k)) (fun k j => w (ix2 k j)) (fun j => b (ix1 j)) c := by
  show Host.dotGeneral d prec a w (ix2 p c)
      + broadcastInDim ⟨2, ![R, N]⟩ ![0, 1] h2 (broadcastInDim ⟨2, ![1, N]⟩ ![1] h1 b) (ix2 p c) = _
  have e2 : broadcastInDim ⟨2, ![R, N]⟩ ![0, 1] h2 (broadcastInDim ⟨2, ![1, N]⟩ ![1] h1 b) (ix2 p c)
      = broadcastInDim ⟨2, ![1, N]⟩ ![1] h1 b (ix2 (0 : Fin 1) c) :=
    broadcastInDim_apply _ h2 _ (ix2 p c) (ix2 (0 : Fin 1) c) fun ax => by
      match ax with
      | ⟨0, _⟩ => show 0 = if (1 : ℕ) = 1 then 0 else p.val; rw [if_pos rfl]
      | ⟨1, _⟩ =>
        show c.val = if N = 1 then 0 else c.val
        split
        · have := c.isLt; omega
        · rfl
  have e1 : broadcastInDim ⟨2, ![1, N]⟩ ![1] h1 b (ix2 (0 : Fin 1) c) = b (ix1 c) :=
    broadcastInDim_apply _ h1 b (ix2 (0 : Fin 1) c) (ix1 c) fun ax => by
      match ax with
      | ⟨0, _⟩ =>
        show c.val = if N = 1 then 0 else c.val
        split
        · have := c.isLt; omega
        · rfl
  rw [e2, e1]
  simp only [Host.dotGeneral]
  rw [Ideal.dotGeneral_apply, contr_sum d hr hs hl hrr]
  rfl

/-! ## Whole arrays, row by row

The same three operations as functions of whole arrays with any number `R` of rows: a kernel's block of rows and a
reference's full array are then the SAME function at two row counts, and because each output row depends only on the same
input row, a block of the result is the function of the blocks (`layerArr_rows`, `actArr_rows`, `catArr_rows`). -/

/-- The dense layer applied to every row of `a`. -/
def layerArr {R K N : ℕ} (a : (⟨2, ![R, K]⟩ : Shape).Idx → EReal) (w : (⟨2, ![K, N]⟩ : Shape).Idx → EReal)
    (b : (⟨1, ![N]⟩ : Shape).Idx → EReal) : (⟨2, ![R, N]⟩ : Shape).Idx → EReal :=
  fun i => layer (fun k => a (ix2 (idxEquiv2 (n0 := R) (n1 := N) i).1 k)) (fun k j => w (ix2 k j)) (fun j => b (ix1 j))
    (idxEquiv2 (n0 := R) (n1 := N) i).2

/-- The activation applied to every entry. -/
def actArr {s : Shape} (z : EReal) (y : s.Idx → EReal) : s.Idx → EReal := fun i => max (y i) z

/-- Two arrays with the same rows, side by side. -/
def catArr {R A B C : ℕ} (hC : C = A + B) (x₁ : (⟨2, ![R, A]⟩ : Shape).Idx → EReal) (x₂ : (⟨2, ![R, B]⟩ : Shape).Idx → EReal) :
    (⟨2, ![R, C]⟩ : Shape).Idx → EReal :=
  fun i => cat hC (fun a => x₁ (ix2 (idxEquiv2 (n0 := R) (n1 := C) i).1 a)) (fun b => x₂ (ix2 (idxEquiv2 (n0 := R) (n1 := C) i).1 b))
    (idxEquiv2 (n0 := R) (n1 := C) i).2

theorem layerArr_apply {R K N : ℕ} (a : (⟨2, ![R, K]⟩ : Shape).Idx → EReal) (w : (⟨2, ![K, N]⟩ : Shape).Idx → EReal)
    (b : (⟨1, ![N]⟩ : Shape).Idx → EReal) (p : Fin R) (c : Fin N) :
    layerArr a w b (ix2 p c) = layer (fun k => a (ix2 p k)) (fun k j => w (ix2 k j)) (fun j => b (ix1 j)) c := rfl

theorem catArr_apply {R A B C : ℕ} (hC : C = A + B) (x₁ : (⟨2, ![R, A]⟩ : Shape).Idx → EReal) (x₂ : (⟨2, ![R, B]⟩ : Shape).Idx → EReal)
    (p : Fin R) (k : Fin C) : catArr hC x₁ x₂ (ix2 p k) = cat hC (fun a => x₁ (ix2 p a)) (fun b => x₂ (ix2 p b)) k := rfl

/-- Row `p` of the layer of `a` is row `σ p` of the layer of `A` when row `p` of `a` is row `σ p` of `A`. -/
theorem layerArr_rows {R R' K N : ℕ} (a : (⟨2, ![R, K]⟩ : Shape).Idx → EReal) (A : (⟨2, ![R', K]⟩ : Shape).Idx → EReal)
    (w : (⟨2, ![K, N]⟩ : Shape).Idx → EReal) (b : (⟨1, ![N]⟩ : Shape).Idx → EReal) (p : Fin R) (p' : Fin R')
    (h : ∀ k : Fin K, a (ix2 p k) = A (ix2 p' k)) (c : Fin N) :
    layerArr a w b (ix2 p c) = layerArr A w b (ix2 p' c) := by
  rw [layerArr_apply, layerArr_apply, show (fun k => a (ix2 p k)) = fun k => A (ix2 p' k) from funext h]

theorem actArr_rows {R R' N : ℕ} (z : EReal) (y : (⟨2, ![R, N]⟩ : Shape).Idx → EReal) (Y : (⟨2, ![R', N]⟩ : Shape).Idx → EReal)
    (p : Fin R) (p' : Fin R') (h : ∀ k : Fin N, y (ix2 p k) = Y (ix2 p' k)) (c : Fin N) :
    actArr z y (ix2 p c) = actArr z Y (ix2 p' c) := by
  show max (y (ix2 p c)) z = max (Y (ix2 p' c)) z
  rw [h c]

theorem catArr_rows {R R' A B C : ℕ} (hC : C = A + B) (x₁ : (⟨2, ![R, A]⟩ : Shape).Idx → EReal) (x₂ : (⟨2, ![R, B]⟩ : Shape).Idx → EReal)
    (X₁ : (⟨2, ![R', A]⟩ : Shape).Idx → EReal) (X₂ : (⟨2, ![R', B]⟩ : Shape).Idx → EReal) (p : Fin R) (p' : Fin R')
    (h₁ : ∀ k : Fin A, x₁ (ix2 p k) = X₁ (ix2 p' k)) (h₂ : ∀ k : Fin B, x₂ (ix2 p k) = X₂ (ix2 p' k)) (c : Fin C) :
    catArr hC x₁ x₂ (ix2 p c) = catArr hC X₁ X₂ (ix2 p' c) := by
  rw [catArr_apply, catArr_apply, show (fun a => x₁ (ix2 p a)) = fun a => X₁ (ix2 p' a) from funext h₁,
    show (fun b => x₂ (ix2 p b)) = fun b => X₂ (ix2 p' b) from funext h₂]

/-- The vector unit's layer, as a whole array. -/
theorem klayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩) :
    addf (matmul d prec a (shapeCast ⟨2, ![K, N]⟩ w hw) (constant ⟨2, ![R, N]⟩ .f32 0x00000000#32))
        (broadcastTo ⟨2, ![R, N]⟩ (shapeCast ⟨2, ![1, N]⟩ b hc) hb)
      = layerArr a w b := by
  funext i
  obtain ⟨p, c, rfl⟩ : ∃ (p : Fin R) (c : Fin N), i = ix2 p c := ⟨i 0, i 1, eq_ix2 i⟩
  exact klayer_apply d hr hs hl hrr prec a w hw b hc hb p c

/-- The host's layer, as a whole array. -/
theorem hlayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (Host.dotGeneral d prec a w)
        (broadcastInDim ⟨2, ![R, N]⟩ ![0, 1] h2 (broadcastInDim ⟨2, ![1, N]⟩ ![1] h1 b))
      = layerArr a w b := by
  funext i
  obtain ⟨p, c, rfl⟩ : ∃ (p : Fin R) (c : Fin N), i = ix2 p c := ⟨i 0, i 1, eq_ix2 i⟩
  exact hlayer_apply d hr hs hl hrr prec a w b h1 h2 p c

/-- Two arrays joined along the columns, as a whole array. -/
theorem concatArr {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) :
    concatenate ⟨2, ![R, C]⟩ (1 : Fin 2) [⟨⟨2, ![R, A]⟩, x₁⟩, ⟨⟨2, ![R, B]⟩, x₂⟩] h = catArr hC x₁ x₂ := by
  funext i
  obtain ⟨p, c, rfl⟩ : ∃ (p : Fin R) (c : Fin C), i = ix2 p c := ⟨i 0, i 1, eq_ix2 i⟩
  exact concat_cols_apply hC x₁ x₂ h p c

end Cert.DenseRow

end
-- ==== Proof.Mlp.lean ====
/-
  THE TWO NETWORKS of the layer, as functions of whole arrays with any number `R` of rows.

  The edge network sends an edge's source-node features `xrow[e, :]` (128 numbers) and its own features `edge[e, :]` (128
  numbers), side by side, through three dense layers 256 → 256 → 256 → 256 with a rectifier after the first two.  The node
  network sends a node's features `x[n, :]` (128) and the mean of the messages it received `agg[n, :]` (256), side by side,
  through two dense layers 384 → 256 → 128 with a rectifier between them.  Each output row depends on the same row of the
  two row-indexed inputs only (`edgeNet_rows`, `nodeNet_rows`), which is what lets a grid of row blocks compute it.
  A weight of either width is an extended real here, so narrowing a weight or an activation to a shorter format is no
  operation at all.
-/
import proofs.«177631_j13486197310233_1_alg».proof.Proof.LibDenseRow

noncomputable section

namespace Cert.Mlp

open Idealize.ShloMosaic Idealize.ShloMosaic.ValueIdx Cert.DenseRow

/-- The rectifier's level: the f32 zero word read as an extended real (the same word on both sides; never evaluated). -/
def zero : EReal := Ideal.ofBits .f32 0x00000000#32

/-- The edge network on every row. -/
def edgeNet {R : ℕ} (xrow edge : (⟨2, ![R, 128]⟩ : Shape).Idx → EReal)
    (wa : (⟨2, ![256, 256]⟩ : Shape).Idx → EReal) (ba : (⟨1, ![256]⟩ : Shape).Idx → EReal)
    (wb : (⟨2, ![256, 256]⟩ : Shape).Idx → EReal) (bb : (⟨1, ![256]⟩ : Shape).Idx → EReal)
    (wc : (⟨2, ![256, 256]⟩ : Shape).Idx → EReal) (bc : (⟨1, ![256]⟩ : Shape).Idx → EReal) :
    (⟨2, ![R, 256]⟩ : Shape).Idx → EReal :=
  layerArr (actArr zero (layerArr (actArr zero (layerArr (catArr (rfl : 256 = 128 + 128) xrow edge) wa ba)) wb bb)) wc bc

/-- The node network on every row. -/
def nodeNet {R : ℕ} (x : (⟨2, ![R, 128]⟩ : Shape).Idx → EReal) (agg : (⟨2, ![R, 256]⟩ : Shape).Idx → EReal)
    (wa : (⟨2, ![384, 256]⟩ : Shape).Idx → EReal) (ba : (⟨1, ![256]⟩ : Shape).Idx → EReal)
    (wb : (⟨2, ![256, 128]⟩ : Shape).Idx → EReal) (bb : (⟨1, ![128]⟩ : Shape).Idx → EReal) :
    (⟨2, ![R, 128]⟩ : Shape).Idx → EReal :=
  layerArr (actArr zero (layerArr (catArr (rfl : 384 = 128 + 256) x agg) wa ba)) wb bb

/-- Row `p` of the edge network of the blocks is row `p'` of the edge network of the arrays, when row `p` of each block
    is row `p'` of its array. -/
theorem edgeNet_rows {R R' : ℕ} (x0 x1 : (⟨2, ![R, 128]⟩ : Shape).Idx → EReal) (X0 X1 : (⟨2, ![R', 128]⟩ : Shape).Idx → EReal)
    (wa : (⟨2, ![256, 256]⟩ : Shape).Idx → EReal) (ba : (⟨1, ![256]⟩ : Shape).Idx → EReal)
    (wb : (⟨2, ![256, 256]⟩ : Shape).Idx → EReal) (bb : (⟨1, ![256]⟩ : Shape).Idx → EReal)
    (wc : (⟨2, ![256, 256]⟩ : Shape).Idx → EReal) (bc : (⟨1, ![256]⟩ : Shape).Idx → EReal)
    (p : Fin R) (p' : Fin R') (h0 : ∀ k : Fin 128, x0 (ix2 p k) = X0 (ix2 p' k)) (h1 : ∀ k : Fin 128, x1 (ix2 p k) = X1 (ix2 p' k))
    (c : Fin 256) : edgeNet x0 x1 wa ba wb bb wc bc (ix2 p c) = edgeNet X0 X1 wa ba wb bb wc bc (ix2 p' c) :=
  layerArr_rows _ _ wc bc p p' (fun k => actArr_rows zero _ _ p p' (fun k => layerArr_rows _ _ wb bb p p'
    (fun k => actArr_rows zero _ _ p p' (fun k => layerArr_rows _ _ wa ba p p'
      (fun k => catArr_rows rfl x0 x1 X0 X1 p p' h0 h1 k) k) k) k) k) c

/-- The same for the node network. -/
theorem nodeNet_rows {R R' : ℕ} (x0 : (⟨2, ![R, 128]⟩ : Shape).Idx → EReal) (x1 : (⟨2, ![R, 256]⟩ : Shape).Idx → EReal)
    (X0 : (⟨2, ![R', 128]⟩ : Shape).Idx → EReal) (X1 : (⟨2, ![R', 256]⟩ : Shape).Idx → EReal)
    (wa : (⟨2, ![384, 256]⟩ : Shape).Idx → EReal) (ba : (⟨1, ![256]⟩ : Shape).Idx → EReal)
    (wb : (⟨2, ![256, 128]⟩ : Shape).Idx → EReal) (bb : (⟨1, ![128]⟩ : Shape).Idx → EReal)
    (p : Fin R) (p' : Fin R') (h0 : ∀ k : Fin 128, x0 (ix2 p k) = X0 (ix2 p' k)) (h1 : ∀ k : Fin 256, x1 (ix2 p k) = X1 (ix2 p' k))
    (c : Fin 128) : nodeNet x0 x1 wa ba wb bb (ix2 p c) = nodeNet X0 X1 wa ba wb bb (ix2 p' c) :=
  layerArr_rows _ _ wb bb p p' (fun k => actArr_rows zero _ _ p p' (fun k => layerArr_rows _ _ wa ba p p'
    (fun k => catArr_rows rfl x0 x1 X0 X1 p p' h0 h1 k) k) k) c

end Cert.Mlp

end
-- ==== Proof.EdgeBody.lean ====
/-
  THE EDGE KERNEL'S BODY.  What the body stores — the value of its one vector store, as one pure term of the eight blocks
  it loads — is the edge network (Mlp.lean) of a block of 4000 rows: the gathered source rows and the edge features side
  by side, then three matrix products each into a zero accumulator with its bias broadcast over the rows, the first two
  followed by the maximum with zero.  The narrowings to the short format before each product are the identity on the
  extended reals.
-/
import proofs.«177631_j13486197310233_1_alg».proof.Proof.Gen.KernelIdeal.Skeleton
import proofs.«177631_j13486197310233_1_alg».proof.Proof.Mlp

noncomputable section

namespace Cert.KernelIdeal.EdgeBody

open Cert.KernelIdeal Cert.KernelIdeal.Gen Idealize.ShloMosaic Idealize.ShloMosaic.ValueIdx Cert.DenseRow

/-- The product's dimension numbers: rows × contraction by contraction × columns. -/
abbrev D : DotDims S4000x256 S256x256 S4000x256 := dot_S4000x256_S256x256_S4000x256_1_0_0_1_n_n

/-- At output index `(p, c)` and contraction coordinate `k` the left operand is read at `(p, k)`. -/
theorem D_lhs (p : Fin 4000) (c : Fin 256) (k : Fin 256) :
    D.lhsIdx (ix2 p c) ((contrEquiv1 D 256 rfl rfl).symm k) = ix2 p k :=
  funext fun a => Fin.ext (by
    match a with
    | ⟨0, _⟩ =>
      show (D.lhsIdx (ix2 p c) ((contrEquiv1 D 256 rfl rfl).symm k) 0).val = p.val
      unfold DotDims.lhsIdx
      rw [dif_neg (show ¬(0 : Fin S4000x256.rank) ∈ D.lhsBatch by decide), dif_pos (show (0 : Fin S4000x256.rank) ∈ D.lhsNonContracting by decide)]
      rfl
    | ⟨1, _⟩ => exact (D.lhsIdx_val_of_single rfl _ _).trans (contrEquiv1_symm_val D 256 rfl rfl k))

/-- … and the right operand at `(k, c)`. -/
theorem D_rhs (p : Fin 4000) (c : Fin 256) (k : Fin 256) :
    D.rhsIdx (ix2 p c) ((contrEquiv1 D 256 rfl rfl).symm k) = ix2 k c :=
  funext fun a => Fin.ext (by
    match a with
    | ⟨0, _⟩ => exact (D.rhsIdx_val_of_single rfl _ _).trans (contrEquiv1_symm_val D 256 rfl rfl k)
    | ⟨1, _⟩ =>
      show (D.rhsIdx (ix2 p c) ((contrEquiv1 D 256 rfl rfl).symm k) 1).val = c.val
      unfold DotDims.rhsIdx
      rw [dif_neg (show ¬(1 : Fin S256x256.rank) ∈ D.rhsBatch by decide), dif_pos (show (1 : Fin S256x256.rank) ∈ D.rhsNonContracting by decide)]
      rfl)

/-- The stored value is the edge network of the loaded blocks. -/
theorem pay_eq (x0 x1 : Vec Ideal S4000x128 .f32) (x2 : Vec Ideal S256x256 .bf16) (x3 : Vec Ideal S256 .f32)
    (x4 : Vec Ideal S256x256 .bf16) (x5 : Vec Ideal S256 .f32) (x6 : Vec Ideal S256x256 .bf16) (x7 : Vec Ideal S256 .f32) :
    k0_pay1 (F := Ideal) x0 x1 x2 x3 x4 x5 x6 x7 = Mlp.edgeNet (R := 4000) x0 x1 x2 x3 x4 x5 x6 x7 := by
  have e0 : concatenate S4000x256 1 [⟨S4000x128, shapeCast S4000x128 x0 shapeCasts_S4000x128_S4000x128⟩, ⟨S4000x128, x1⟩]
      concatenates_S4000x128_S4000x128_S4000x256_d1 = catArr (rfl : 256 = 128 + 128) x0 x1 := by
    rw [shapeCast_self]
    exact concatArr rfl x0 x1 _
  unfold k0_pay1 Mlp.edgeNet
  dsimp only
  rw [e0, klayerArr D rfl rfl D_lhs D_rhs, klayerArr D rfl rfl D_lhs D_rhs, klayerArr D rfl rfl D_lhs D_rhs]
  rfl

end Cert.KernelIdeal.EdgeBody

end
-- ==== Proof.EdgeBlocks.lean ====
/-
  THE EDGE REGION, FROM BLOCKS TO THE ARRAY.  The region runs the edge kernel at 160 grid points; at point `t` the two
  row-indexed operands (gathered source rows, edge features) are staged as rows `4000·t … 4000·t + 3999`, the six weight
  and bias operands whole, and the result block is written back to the same rows of the message array.  Since the edge
  network is computed row by row (Mlp.lean `edgeNet_rows`), what point `t` writes back is block `t` of the edge network of
  the WHOLE operand arrays; the 160 blocks tile the 640000 rows, so the message array ends as that one function.
  Everything is stated at the contents `V` the region is entered with, whatever they are.
-/
import proofs.«177631_j13486197310233_1_alg».proof.Proof.Gen.KernelIdeal.Frame
import proofs.«177631_j13486197310233_1_alg».proof.Proof.EdgeBody

set_option maxRecDepth 16384

noncomputable section

namespace Cert.KernelIdeal.EdgeBlocks

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The message array the region leaves: the edge network of the operand arrays as the region finds them. -/
abbrev H (c : Dev nD) : S640000x256.Idx → EReal :=
  Mlp.edgeNet (R := 640000) (V c main_v10) (V c main_arg2) (V c main_v11) (V c main_arg6) (V c main_v12) (V c main_arg8)
    (V c main_v13) (V c main_arg10)

/-- The printed index maps over the grid: the row-indexed windows and the result sit at block `(t, 0)`, the weights and
    biases at block zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = t.val ∧ win0_8.index t (1 : Fin 2) = 0 :=
  (by decide +kernel : ∀ t : Fin grid0.N, _)

theorem t_lt (t : Fin cfg0.N) : t.val < 160 := lt_of_lt_of_eq t.isLt (N_0 : cfg0.N = 160)

/-! ## Each window's block at a point, read off its array -/

theorem rows0 (c : Dev nD) (t : Fin cfg0.N) (p : Fin 4000) (k : Fin 128) :
    iblk0 V c 0 t (ix2 p k) = V c main_v10 (ix2 (⟨t.val * 4000 + p.val, by have := t_lt t; omega⟩ : Fin 640000) k) := by
  obtain ⟨e0, e1, -⟩ := idx_facts t
  show V c main_v10 (((cfg0.win 0).blk t).view.emb (ix2 p k)) = _
  refine congrArg _ (funext fun a => Fin.ext ?_)
  match a with
  | ⟨0, _⟩ => show win0_0.index t (0 : Fin 2) * 4000 + 1 * p.val = t.val * 4000 + p.val; omega
  | ⟨1, _⟩ => show win0_0.index t (1 : Fin 2) * 128 + 1 * k.val = k.val; omega

theorem rows1 (c : Dev nD) (t : Fin cfg0.N) (p : Fin 4000) (k : Fin 128) :
    iblk0 V c 1 t (ix2 p k) = V c main_arg2 (ix2 (⟨t.val * 4000 + p.val, by have := t_lt t; omega⟩ : Fin 640000) k) := by
  obtain ⟨-, -, e0, e1, -⟩ := idx_facts t
  show V c main_arg2 (((cfg0.win 1).blk t).view.emb (ix2 p k)) = _
  refine congrArg _ (funext fun a => Fin.ext ?_)
  match a with
  | ⟨0, _⟩ => show win0_1.index t (0 : Fin 2) * 4000 + 1 * p.val = t.val * 4000 + p.val; omega
  | ⟨1, _⟩ => show win0_1.index t (1 : Fin 2) * 128 + 1 * k.val = k.val; omega

theorem whole2 (c : Dev nD) (t : Fin cfg0.N) : iblk0 V c 2 t = V c main_v11 := by
  obtain ⟨-, -, -, -, e0, e1, -⟩ := idx_facts t
  funext y
  show V c main_v11 (((cfg0.win 2).blk t).view.emb y) = V c main_v11 y
  refine congrArg _ (funext fun a => Fin.ext ?_)
  match a with
  | ⟨0, _⟩ => show win0_2.index t (0 : Fin 2) * 256 + 1 * (y 0).val = (y 0).val; omega
  | ⟨1, _⟩ => show win0_2.index t (1 : Fin 2) * 256 + 1 * (y 1).val = (y 1).val; omega

theorem whole3 (c : Dev nD) (t : Fin cfg0.N) : iblk0 V c 3 t = V c main_arg6 := by
  obtain ⟨-, -, -, -, -, -, e0, -⟩ := idx_facts t
  funext y
  show V c main_arg6 (((cfg0.win 3).blk t).view.emb y) = V c main_arg6 y
  refine congrArg _ (funext fun a => Fin.ext ?_)
  match a with
  | ⟨0, _⟩ => show win0_3.index t (0 : Fin 1) * 256 + 1 * (y 0).val = (y 0).val; omega

theorem whole4 (c : Dev nD) (t : Fin cfg0.N) : iblk0 V c 4 t = V c main_v12 := by
  obtain ⟨-, -, -, -, -, -, -, e0, e1, -⟩ := idx_facts t
  funext y
  show V c main_v12 (((cfg0.win 4).blk t).view.emb y) = V c main_v12 y
  refine congrArg _ (funext fun a => Fin.ext ?_)
  match a with
  | ⟨0, _⟩ => show win0_4.index t (0 : Fin 2) * 256 + 1 * (y 0).val = (y 0).val; omega
  | ⟨1, _⟩ => show win0_4.index t (1 : Fin 2) * 256 + 1 * (y 1).val = (y 1).val; omega

theorem whole5 (c : Dev nD) (t : Fin cfg0.N) : iblk0 V c 5 t = V c main_arg8 := by
  obtain ⟨-, -, -, -, -, -, -, -, -, e0, -⟩ := idx_facts t
  funext y
  show V c main_arg8 (((cfg0.win 5).blk t).view.emb y) = V c main_arg8 y
  refine congrArg _ (funext fun a => Fin.ext ?_)
  match a with
  | ⟨0, _⟩ => show win0_5.index t (0 : Fin 1) * 256 + 1 * (y 0).val = (y 0).val; omega

theorem whole6 (c : Dev nD) (t : Fin cfg0.N) : iblk0 V c 6 t = V c main_v13 := by
  obtain ⟨-, -, -, -, -, -, -, -, -, -, e0, e1, -⟩ := idx_facts t
  funext y
  show V c main_v13 (((cfg0.win 6).blk t).view.emb y) = V c main_v13 y
  refine congrArg _ (funext fun a => Fin.ext ?_)
  match a with
  | ⟨0, _⟩ => show win0_6.index t (0 : Fin 2) * 256 + 1 * (y 0).val = (y 0).val; omega
  | ⟨1, _⟩ => show win0_6.index t (1 : Fin 2) * 256 + 1 * (y 1).val = (y 1).val; omega

theorem whole7 (c : Dev nD) (t : Fin cfg0.N) : iblk0 V c 7 t = V c main_arg10 := by
  obtain ⟨-, -, -, -, -, -, -, -, -, -, -, -, e0, -⟩ := idx_facts t
  funext y
  show V c main_arg10 (((cfg0.win 7).blk t).view.emb y) = V c main_arg10 y
  refine congrArg _ (funext fun a => Fin.ext ?_)
  match a with
  | ⟨0, _⟩ => show win0_7.index t (0 : Fin 1) * 256 + 1 * (y 0).val = (y 0).val; omega

/-! ## What a point writes back -/

/-- What point `t` writes back is block `t` of the edge network of the whole operand arrays. -/
theorem flushed_eq (c : Dev nD) (t : Fin cfg0.N) :
    (dat0 V c).flushed 8 t = ((cfg0.win 8).blk t).view.read (Elt Ideal) (H V c) := by
  show (cfg0.win 8).cut (grid0.coords t) ((dat0 V c).after 8 t) = _
  rw [after0_8]
  unfold out0_8
  rw [View.canon_unit_zero hz2]
  simp only [View.ld_unit_zero (S := S4000x128) hz2, View.ld_unit_zero (S := S256x256) hz2, View.ld_unit_zero (S := S256) hz1]
  rw [EdgeBody.pay_eq, whole2 V c t, whole3 V c t, whole4 V c t, whole5 V c t, whole6 V c t, whole7 V c t]
  obtain ⟨-, -, -, -, -, -, -, -, -, -, -, -, -, e0, e1⟩ := idx_facts t
  have ht := t_lt t
  funext j
  have hj0 : (j 0).val < 4000 := (j 0).isLt
  have hj1 : (j 1).val < 256 := (j 1).isLt
  have hj : (j : S4000x256.Idx) = ix2 (⟨(j 0).val, hj0⟩ : Fin 4000) (⟨(j 1).val, hj1⟩ : Fin 256) :=
    funext fun a => by match a with | ⟨0, _⟩ => rfl | ⟨1, _⟩ => rfl
  have hemb : ((cfg0.win 8).blk t).view.emb j
      = ix2 (⟨t.val * 4000 + (j 0).val, by omega⟩ : Fin 640000) (⟨(j 1).val, hj1⟩ : Fin 256) :=
    funext fun a => Fin.ext (by
      match a with
      | ⟨0, _⟩ => show win0_8.index t (0 : Fin 2) * 4000 + 1 * (j 0).val = t.val * 4000 + (j 0).val; omega
      | ⟨1, _⟩ => show win0_8.index t (1 : Fin 2) * 256 + 1 * (j 1).val = (j 1).val; omega)
  show Mlp.edgeNet (R := 4000) (iblk0 V c 0 t) (iblk0 V c 1 t) (V c main_v11) (V c main_arg6) (V c main_v12) (V c main_arg8)
      (V c main_v13) (V c main_arg10) j = H V c (((cfg0.win 8).blk t).view.emb j)
  rw [hemb]
  exact (congrArg (Mlp.edgeNet (R := 4000) (iblk0 V c 0 t) (iblk0 V c 1 t) (V c main_v11) (V c main_arg6) (V c main_v12)
      (V c main_arg8) (V c main_v13) (V c main_arg10)) hj).trans
    (Mlp.edgeNet_rows _ _ _ _ _ _ _ _ _ _ _ _ (fun k => rows0 V c t _ k) (fun k => rows1 V c t _ k) _)

/-! ## The blocks tile the array -/

theorem mem_blk (t : Fin cfg0.N) (i : S640000x256.Idx) :
    i ∈ ((cfg0.win 8).blk t).view.set ↔ ∀ a : Fin 2, win0_8.index t a * S4000x256.size a ≤ (i a).val
      ∧ (i a).val < win0_8.index t a * S4000x256.size a + S4000x256.size a := by
  show i ∈ ((View.whole main_v14).slice (win0_8.rect t)).set ↔ _
  rw [View.set_slice_whole, Rect.mem_set_unit]
  exact Iff.rfl

/-- Row `r` of the message array is in the block of point `r / 4000`. -/
theorem cover (i : S640000x256.Idx) :
    ∃ t : Fin cfg0.N, (cfg0.win 8).flush t = true ∧ i ∈ ((cfg0.win 8).blk t).view.set := by
  have hi0 : (i 0).val < 640000 := (i 0).isLt
  have hi1 : (i 1).val < 256 := (i 1).isLt
  have hN : cfg0.N = 160 := N_0
  let t : Fin cfg0.N := ⟨(i 0).val / 4000, by rw [hN]; omega⟩
  obtain ⟨-, -, -, -, -, -, -, -, -, -, -, -, -, e0, e1⟩ := idx_facts t
  have htv : t.val = (i 0).val / 4000 := rfl
  refine ⟨t, flush0_8 t, ?_⟩
  rw [mem_blk]
  intro a
  match a with
  | ⟨0, _⟩ =>
    show win0_8.index t (0 : Fin 2) * 4000 ≤ (i 0).val ∧ (i 0).val < win0_8.index t (0 : Fin 2) * 4000 + 4000
    omega
  | ⟨1, _⟩ =>
    show win0_8.index t (1 : Fin 2) * 256 ≤ (i 1).val ∧ (i 1).val < win0_8.index t (1 : Fin 2) * 256 + 256
    omega

/-- THE MESSAGE ARRAY after the region: the edge network of the operand arrays. -/
theorem final (c : Dev nD) : (dat0 V c).arrAt 8 cfg0.N = H V c :=
  (dat0 V c).arrAt_eq_of_cover 8 (H V c) (fun t _ => flushed_eq V c t) cover

end Cert.KernelIdeal.EdgeBlocks

end
-- ==== Proof.NodeBody.lean ====
/-
  THE NODE KERNEL'S BODY.  The value of its one vector store, as one pure term of the six blocks it loads, is the node
  network (Mlp.lean) of a block of 2000 rows: the node features and the mean messages side by side (384 columns), a matrix
  product 384 → 256 with its bias, the maximum with zero, a matrix product 256 → 128 with its bias.
-/
import proofs.«177631_j13486197310233_1_alg».proof.Proof.Gen.KernelIdeal.Skeleton
import proofs.«177631_j13486197310233_1_alg».proof.Proof.Mlp

noncomputable section

namespace Cert.KernelIdeal.NodeBody

open Cert.KernelIdeal Cert.KernelIdeal.Gen Idealize.ShloMosaic Idealize.ShloMosaic.ValueIdx Cert.DenseRow

/-- The first product's dimension numbers (rows × 384 by 384 × 256). -/
abbrev Da : DotDims S2000x384 S384x256 S2000x256 := dot_S2000x384_S384x256_S2000x256_1_0_0_1_n_n
/-- The second product's (rows × 256 by 256 × 128). -/
abbrev Db : DotDims S2000x256 S256x128 S2000x128 := dot_S2000x256_S256x128_S2000x128_1_0_0_1_n_n

theorem Da_lhs (p : Fin 2000) (c : Fin 256) (k : Fin 384) :
    Da.lhsIdx (ix2 p c) ((contrEquiv1 Da 384 rfl rfl).symm k) = ix2 p k :=
  funext fun a => Fin.ext (by
    match a with
    | ⟨0, _⟩ =>
      show (Da.lhsIdx (ix2 p c) ((contrEquiv1 Da 384 rfl rfl).symm k) 0).val = p.val
      unfold DotDims.lhsIdx
      rw [dif_neg (show ¬(0 : Fin S2000x384.rank) ∈ Da.lhsBatch by decide), dif_pos (show (0 : Fin S2000x384.rank) ∈ Da.lhsNonContracting by decide)]
      rfl
    | ⟨1, _⟩ => exact (Da.lhsIdx_val_of_single rfl _ _).trans (contrEquiv1_symm_val Da 384 rfl rfl k))

theorem Da_rhs (p : Fin 2000) (c : Fin 256) (k : Fin 384) :
    Da.rhsIdx (ix2 p c) ((contrEquiv1 Da 384 rfl rfl).symm k) = ix2 k c :=
  funext fun a => Fin.ext (by
    match a with
    | ⟨0, _⟩ => exact (Da.rhsIdx_val_of_single rfl _ _).trans (contrEquiv1_symm_val Da 384 rfl rfl k)
    | ⟨1, _⟩ =>
      show (Da.rhsIdx (ix2 p c) ((contrEquiv1 Da 384 rfl rfl).symm k) 1).val = c.val
      unfold DotDims.rhsIdx
      rw [dif_neg (show ¬(1 : Fin S384x256.rank) ∈ Da.rhsBatch by decide), dif_pos (show (1 : Fin S384x256.rank) ∈ Da.rhsNonContracting by decide)]
      rfl)

theorem Db_lhs (p : Fin 2000) (c : Fin 128) (k : Fin 256) :
    Db.lhsIdx (ix2 p c) ((contrEquiv1 Db 256 rfl rfl).symm k) = ix2 p k :=
  funext fun a => Fin.ext (by
    match a with
    | ⟨0, _⟩ =>
      show (Db.lhsIdx (ix2 p c) ((contrEquiv1 Db 256 rfl rfl).symm k) 0).val = p.val
      unfold DotDims.lhsIdx
      rw [dif_neg (show ¬(0 : Fin S2000x256.rank) ∈ Db.lhsBatch by decide), dif_pos (show (0 : Fin S2000x256.rank) ∈ Db.lhsNonContracting by decide)]
      rfl
    | ⟨1, _⟩ => exact (Db.lhsIdx_val_of_single rfl _ _).trans (contrEquiv1_symm_val Db 256 rfl rfl k))

theorem Db_rhs (p : Fin 2000) (c : Fin 128) (k : Fin 256) :
    Db.rhsIdx (ix2 p c) ((contrEquiv1 Db 256 rfl rfl).symm k) = ix2 k c :=
  funext fun a => Fin.ext (by
    match a with
    | ⟨0, _⟩ => exact (Db.rhsIdx_val_of_single rfl _ _).trans (contrEquiv1_symm_val Db 256 rfl rfl k)
    | ⟨1, _⟩ =>
      show (Db.rhsIdx (ix2 p c) ((contrEquiv1 Db 256 rfl rfl).symm k) 1).val = c.val
      unfold DotDims.rhsIdx
      rw [dif_neg (show ¬(1 : Fin S256x128.rank) ∈ Db.rhsBatch by decide), dif_pos (show (1 : Fin S256x128.rank) ∈ Db.rhsNonContracting by decide)]
      rfl)

/-- The stored value is the node network of the loaded blocks. -/
theorem pay_eq (x0 : Vec Ideal S2000x128 .f32) (x1 : Vec Ideal S2000x256 .f32) (x2 : Vec Ideal S384x256 .bf16)
    (x3 : Vec Ideal S256 .f32) (x4 : Vec Ideal S256x128 .bf16) (x5 : Vec Ideal S128 .f32) :
    k1_pay1 (F := Ideal) x0 x1 x2 x3 x4 x5 = Mlp.nodeNet (R := 2000) x0 x1 x2 x3 x4 x5 := by
  have e0 : concatenate S2000x384 1 [⟨S2000x128, x0⟩, ⟨S2000x256, shapeCast S2000x256 x1 shapeCasts_S2000x256_S2000x256⟩]
      concatenates_S2000x128_S2000x256_S2000x384_d1 = catArr (rfl : 384 = 128 + 256) x0 x1 := by
    rw [shapeCast_self]
    exact concatArr rfl x0 x1 _
  unfold k1_pay1 Mlp.nodeNet
  dsimp only
  rw [e0, klayerArr Da rfl rfl Da_lhs Da_rhs, klayerArr Db rfl rfl Db_lhs Db_rhs]
  rfl

end Cert.KernelIdeal.NodeBody

end
-- ==== Proof.NodeBlocks.lean ====
/-
  THE NODE REGION, FROM BLOCKS TO THE ARRAY.  The region runs the node kernel at 20 grid points; at point `t` the node
  features and the mean messages are staged as rows `2000·t … 2000·t + 1999`, the four weight and bias operands whole, and
  the result block is written back to the same rows of the result array.  The node network is computed row by row
  (Mlp.lean `nodeNet_rows`), so what point `t` writes back is block `t` of the node network of the WHOLE operand arrays;
  the 20 blocks tile the 40000 rows, so the result array ends as that one function.  Stated at the contents `V` the region
  is entered with, whatever they are.
-/
import proofs.«177631_j13486197310233_1_alg».proof.Proof.Gen.KernelIdeal.Frame
import proofs.«177631_j13486197310233_1_alg».proof.Proof.NodeBody

set_option maxRecDepth 16384

noncomputable section

namespace Cert.KernelIdeal.NodeBlocks

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The result array the region leaves: the node network of the operand arrays as the region finds them. -/
abbrev Out (c : Dev nD) : S40000x128.Idx → EReal :=
  Mlp.nodeNet (R := 40000) (V c main_arg0) (V c main_v26) (V c main_v27) (V c main_arg12) (V c main_v28) (V c main_arg14)

/-- The printed index maps over the grid: the row-indexed windows and the result sit at block `(t, 0)`, the weights and
    biases at block zero. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

theorem t_lt (t : Fin cfg1.N) : t.val < 20 := lt_of_lt_of_eq t.isLt (N_1 : cfg1.N = 20)

/-! ## Each window's block at a point, read off its array -/

theorem rows0 (c : Dev nD) (t : Fin cfg1.N) (p : Fin 2000) (k : Fin 128) :
    iblk1 V c 0 t (ix2 p k) = V c main_arg0 (ix2 (⟨t.val * 2000 + p.val, by have := t_lt t; omega⟩ : Fin 40000) k) := by
  obtain ⟨e0, e1, -⟩ := idx_facts t
  show V c main_arg0 (((cfg1.win 0).blk t).view.emb (ix2 p k)) = _
  refine congrArg _ (funext fun a => Fin.ext ?_)
  match a with
  | ⟨0, _⟩ => show win1_0.index t (0 : Fin 2) * 2000 + 1 * p.val = t.val * 2000 + p.val; omega
  | ⟨1, _⟩ => show win1_0.index t (1 : Fin 2) * 128 + 1 * k.val = k.val; omega

theorem rows1 (c : Dev nD) (t : Fin cfg1.N) (p : Fin 2000) (k : Fin 256) :
    iblk1 V c 1 t (ix2 p k) = V c main_v26 (ix2 (⟨t.val * 2000 + p.val, by have := t_lt t; omega⟩ : Fin 40000) k) := by
  obtain ⟨-, -, e0, e1, -⟩ := idx_facts t
  show V c main_v26 (((cfg1.win 1).blk t).view.emb (ix2 p k)) = _
  refine congrArg _ (funext fun a => Fin.ext ?_)
  match a with
  | ⟨0, _⟩ => show win1_1.index t (0 : Fin 2) * 2000 + 1 * p.val = t.val * 2000 + p.val; omega
  | ⟨1, _⟩ => show win1_1.index t (1 : Fin 2) * 256 + 1 * k.val = k.val; omega

theorem whole2 (c : Dev nD) (t : Fin cfg1.N) : iblk1 V c 2 t = V c main_v27 := by
  obtain ⟨-, -, -, -, e0, e1, -⟩ := idx_facts t
  funext y
  show V c main_v27 (((cfg1.win 2).blk t).view.emb y) = V c main_v27 y
  refine congrArg _ (funext fun a => Fin.ext ?_)
  match a with
  | ⟨0, _⟩ => show win1_2.index t (0 : Fin 2) * 384 + 1 * (y 0).val = (y 0).val; omega
  | ⟨1, _⟩ => show win1_2.index t (1 : Fin 2) * 256 + 1 * (y 1).val = (y 1).val; omega

theorem whole3 (c : Dev nD) (t : Fin cfg1.N) : iblk1 V c 3 t = V c main_arg12 := by
  obtain ⟨-, -, -, -, -, -, e0, -⟩ := idx_facts t
  funext y
  show V c main_arg12 (((cfg1.win 3).blk t).view.emb y) = V c main_arg12 y
  refine congrArg _ (funext fun a => Fin.ext ?_)
  match a with
  | ⟨0, _⟩ => show win1_3.index t (0 : Fin 1) * 256 + 1 * (y 0).val = (y 0).val; omega

theorem whole4 (c : Dev nD) (t : Fin cfg1.N) : iblk1 V c 4 t = V c main_v28 := by
  obtain ⟨-, -, -, -, -, -, -, e0, e1, -⟩ := idx_facts t
  funext y
  show V c main_v28 (((cfg1.win 4).blk t).view.emb y) = V c main_v28 y
  refine congrArg _ (funext fun a => Fin.ext ?_)
  match a with
  | ⟨0, _⟩ => show win1_4.index t (0 : Fin 2) * 256 + 1 * (y 0).val = (y 0).val; omega
  | ⟨1, _⟩ => show win1_4.index t (1 : Fin 2) * 128 + 1 * (y 1).val = (y 1).val; omega

theorem whole5 (c : Dev nD) (t : Fin cfg1.N) : iblk1 V c 5 t = V c main_arg14 := by
  obtain ⟨-, -, -, -, -, -, -, -, -, e0, -⟩ := idx_facts t
  funext y
  show V c main_arg14 (((cfg1.win 5).blk t).view.emb y) = V c main_arg14 y
  refine congrArg _ (funext fun a => Fin.ext ?_)
  match a with
  | ⟨0, _⟩ => show win1_5.index t (0 : Fin 1) * 128 + 1 * (y 0).val = (y 0).val; omega

/-! ## What a point writes back -/

/-- What point `t` writes back is block `t` of the node network of the whole operand arrays. -/
theorem flushed_eq (c : Dev nD) (t : Fin cfg1.N) :
    (dat1 V c).flushed 6 t = ((cfg1.win 6).blk t).view.read (Elt Ideal) (Out V c) := by
  show (cfg1.win 6).cut (grid1.coords t) ((dat1 V c).after 6 t) = _
  rw [after1_6]
  unfold out1_6
  rw [View.canon_unit_zero hz2]
  simp only [View.ld_unit_zero (S := S2000x128) hz2, View.ld_unit_zero (S := S2000x256) hz2, View.ld_unit_zero (S := S384x256) hz2,
    View.ld_unit_zero (S := S256x128) hz2, View.ld_unit_zero (S := S256) hz1, View.ld_unit_zero (S := S128) hz1]
  rw [NodeBody.pay_eq, whole2 V c t, whole3 V c t, whole4 V c t, whole5 V c t]
  obtain ⟨-, -, -, -, -, -, -, -, -, -, e0, e1⟩ := idx_facts t
  have ht := t_lt t
  funext j
  have hj0 : (j 0).val < 2000 := (j 0).isLt
  have hj1 : (j 1).val < 128 := (j 1).isLt
  have hj : (j : S2000x128.Idx) = ix2 (⟨(j 0).val, hj0⟩ : Fin 2000) (⟨(j 1).val, hj1⟩ : Fin 128) :=
    funext fun a => by match a with | ⟨0, _⟩ => rfl | ⟨1, _⟩ => rfl
  have hemb : ((cfg1.win 6).blk t).view.emb j
      = ix2 (⟨t.val * 2000 + (j 0).val, by omega⟩ : Fin 40000) (⟨(j 1).val, hj1⟩ : Fin 128) :=
    funext fun a => Fin.ext (by
      match a with
      | ⟨0, _⟩ => show win1_6.index t (0 : Fin 2) * 2000 + 1 * (j 0).val = t.val * 2000 + (j 0).val; omega
      | ⟨1, _⟩ => show win1_6.index t (1 : Fin 2) * 128 + 1 * (j 1).val = (j 1).val; omega)
  show Mlp.nodeNet (R := 2000) (iblk1 V c 0 t) (iblk1 V c 1 t) (V c main_v27) (V c main_arg12) (V c main_v28) (V c main_arg14) j
      = Out V c (((cfg1.win 6).blk t).view.emb j)
  rw [hemb]
  exact (congrArg (Mlp.nodeNet (R := 2000) (iblk1 V c 0 t) (iblk1 V c 1 t) (V c main_v27) (V c main_arg12) (V c main_v28)
      (V c main_arg14)) hj).trans
    (Mlp.nodeNet_rows _ _ _ _ _ _ _ _ _ _ (fun k => rows0 V c t _ k) (fun k => rows1 V c t _ k) _)

/-! ## The blocks tile the array -/

theorem mem_blk (t : Fin cfg1.N) (i : S40000x128.Idx) :
    i ∈ ((cfg1.win 6).blk t).view.set ↔ ∀ a : Fin 2, win1_6.index t a * S2000x128.size a ≤ (i a).val
      ∧ (i a).val < win1_6.index t a * S2000x128.size a + S2000x128.size a := by
  show i ∈ ((View.whole main_v29).slice (win1_6.rect t)).set ↔ _
  rw [View.set_slice_whole, Rect.mem_set_unit]
  exact Iff.rfl

/-- Row `r` of the result array is in the block of point `r / 2000`. -/
theorem cover (i : S40000x128.Idx) :
    ∃ t : Fin cfg1.N, (cfg1.win 6).flush t = true ∧ i ∈ ((cfg1.win 6).blk t).view.set := by
  have hi0 : (i 0).val < 40000 := (i 0).isLt
  have hi1 : (i 1).val < 128 := (i 1).isLt
  have hN : cfg1.N = 20 := N_1
  let t : Fin cfg1.N := ⟨(i 0).val / 2000, by rw [hN]; omega⟩
  obtain ⟨-, -, -, -, -, -, -, -, -, -, e0, e1⟩ := idx_facts t
  have htv : t.val = (i 0).val / 2000 := rfl
  refine ⟨t, flush1_6 t, ?_⟩
  rw [mem_blk]
  intro a
  match a with
  | ⟨0, _⟩ =>
    show win1_6.index t (0 : Fin 2) * 2000 ≤ (i 0).val ∧ (i 0).val < win1_6.index t (0 : Fin 2) * 2000 + 2000
    omega
  | ⟨1, _⟩ =>
    show win1_6.index t (1 : Fin 2) * 128 ≤ (i 1).val ∧ (i 1).val < win1_6.index t (1 : Fin 2) * 128 + 128
    omega

/-- THE RESULT ARRAY after the region: the node network of the operand arrays. -/
theorem final (c : Dev nD) : (dat1 V c).arrAt 6 cfg1.N = Out V c :=
  (dat1 V c).arrAt_eq_of_cover 6 (Out V c) (fun t _ => flushed_eq V c t) cover

end Cert.KernelIdeal.NodeBlocks

end
-- ==== Proof.RefValue.lean ====
/-
  THE REFERENCE'S RESULT AS A COMPOSITION OF THREE FUNCTIONS.  Read one host operation at a time (the generated stages
  `Read.val_main_vN`), the reference computes: the gathered source rows `val_main_v10`; the message array `val_main_v25`,
  which is the edge network (Mlp.lean) of the gathered rows, the edge features and the first six weights — three
  `dot_general`s contracting columns with rows, each plus its bias broadcast over the rows, the first two followed by the
  maximum with a zero splat; the mean messages `val_main_v37`, a scatter-add of the messages to their destination nodes
  divided by the clamped counts — carried here as ONE function `mid` of the message array and the edge list and never
  opened; and the result `val_main_v47`, the node network of the node features, the mean messages and the last four
  weights.
-/
import proofs.«177631_j13486197310233_1_alg».proof.Proof.Gen.ReferenceIdeal.Read
import proofs.«177631_j13486197310233_1_alg».proof.Proof.Mlp
import Idealize.ShloMosaic.Lib.IdealHost

noncomputable section

namespace Cert.ReferenceIdeal.Whole

open Cert.ReferenceIdeal Cert.ReferenceIdeal.Gen Cert.ReferenceIdeal.Read
open Idealize.ShloMosaic Idealize.ShloMosaic.ValueIdx Cert.DenseRow

/-! ## The three contractions' dimension numbers -/

abbrev D1 : DotDims S640000x256 S256x256 S640000x256 := dot_S640000x256_S256x256_S640000x256_1_0_0_1_n_n
abbrev D2 : DotDims S40000x384 S384x256 S40000x256 := dot_S40000x384_S384x256_S40000x256_1_0_0_1_n_n
abbrev D3 : DotDims S40000x256 S256x128 S40000x128 := dot_S40000x256_S256x128_S40000x128_1_0_0_1_n_n

theorem D1_lhs (p : Fin 640000) (c : Fin 256) (k : Fin 256) :
    D1.lhsIdx (ix2 p c) ((contrEquiv1 D1 256 rfl rfl).symm k) = ix2 p k :=
  funext fun a => Fin.ext (by
    match a with
    | ⟨0, _⟩ => exact lhs_main_v12_0 _ _
    | ⟨1, _⟩ => exact (lhs_main_v12_1 _ _).trans (contrEquiv1_symm_val D1 256 rfl rfl k))
theorem D1_rhs (p : Fin 640000) (c : Fin 256) (k : Fin 256) :
    D1.rhsIdx (ix2 p c) ((contrEquiv1 D1 256 rfl rfl).symm k) = ix2 k c :=
  funext fun a => Fin.ext (by
    match a with
    | ⟨0, _⟩ => exact (rhs_main_v12_0 _ _).trans (contrEquiv1_symm_val D1 256 rfl rfl k)
    | ⟨1, _⟩ => exact rhs_main_v12_1 _ _)
theorem D2_lhs (p : Fin 40000) (c : Fin 256) (k : Fin 384) :
    D2.lhsIdx (ix2 p c) ((contrEquiv1 D2 384 rfl rfl).symm k) = ix2 p k :=
  funext fun a => Fin.ext (by
    match a with
    | ⟨0, _⟩ => exact lhs_main_v39_0 _ _
    | ⟨1, _⟩ => exact (lhs_main_v39_1 _ _).trans (contrEquiv1_symm_val D2 384 rfl rfl k))
theorem D2_rhs (p : Fin 40000) (c : Fin 256) (k : Fin 384) :
    D2.rhsIdx (ix2 p c) ((contrEquiv1 D2 384 rfl rfl).symm k) = ix2 k c :=
  funext fun a => Fin.ext (by
    match a with
    | ⟨0, _⟩ => exact (rhs_main_v39_0 _ _).trans (contrEquiv1_symm_val D2 384 rfl rfl k)
    | ⟨1, _⟩ => exact rhs_main_v39_1 _ _)
theorem D3_lhs (p : Fin 40000) (c : Fin 128) (k : Fin 256) :
    D3.lhsIdx (ix2 p c) ((contrEquiv1 D3 256 rfl rfl).symm k) = ix2 p k :=
  funext fun a => Fin.ext (by
    match a with
    | ⟨0, _⟩ => exact lhs_main_v44_0 _ _
    | ⟨1, _⟩ => exact (lhs_main_v44_1 _ _).trans (contrEquiv1_symm_val D3 256 rfl rfl k))
theorem D3_rhs (p : Fin 40000) (c : Fin 128) (k : Fin 256) :
    D3.rhsIdx (ix2 p c) ((contrEquiv1 D3 256 rfl rfl).symm k) = ix2 k c :=
  funext fun a => Fin.ext (by
    match a with
    | ⟨0, _⟩ => exact (rhs_main_v44_0 _ _).trans (contrEquiv1_symm_val D3 256 rfl rfl k)
    | ⟨1, _⟩ => exact rhs_main_v44_1 _ _)

/-- The host's rectifier: the maximum with a zero scalar broadcast to the array's shape. -/
theorem relu_eq {s : Shape} (h : (⟨0, ![]⟩ : Shape).BroadcastsInDim s ![]) (y : FVec Ideal s .f32) :
    maximumf y (broadcastInDim s ![] h (constant (F := Ideal) ⟨0, ![]⟩ .f32 0x00000000#32)) = actArr Mlp.zero y := by
  funext i
  show max (y i) (broadcastInDim s ![] h (constant (F := Ideal) ⟨0, ![]⟩ .f32 0x00000000#32) i) = max (y i) Mlp.zero
  rw [broadcastInDim_scalar_apply]
  rfl

/-! ## The message array -/

theorem edge_eq (x0 : (⟨S40000x128, .f32⟩ : BufTy).Contents (Elt Ideal)) (x1 : (⟨S2x640000, .i32⟩ : BufTy).Contents (Elt Ideal))
    (x2 : (⟨S640000x128, .f32⟩ : BufTy).Contents (Elt Ideal)) (x5 : (⟨S256x256, .f32⟩ : BufTy).Contents (Elt Ideal))
    (x6 : (⟨S256, .f32⟩ : BufTy).Contents (Elt Ideal)) (x7 : (⟨S256x256, .f32⟩ : BufTy).Contents (Elt Ideal))
    (x8 : (⟨S256, .f32⟩ : BufTy).Contents (Elt Ideal)) (x9 : (⟨S256x256, .f32⟩ : BufTy).Contents (Elt Ideal))
    (x10 : (⟨S256, .f32⟩ : BufTy).Contents (Elt Ideal)) :
    val_main_v25 (F := Ideal) x0 x1 x2 x5 x6 x7 x8 x9 x10
      = Mlp.edgeNet (R := 640000) (val_main_v10 (F := Ideal) x0 x1) x2 x5 x6 x7 x8 x9 x10 := by
  unfold val_main_v25 val_main_v24 val_main_v23 val_main_v22 val_main_v21 val_main_call1_v0 val_main_call1_cst val_main_v20
    val_main_v19 val_main_v18 val_main_v17 val_main_v16 val_main_call0_v0 val_main_call0_cst val_main_v15 val_main_v14
    val_main_v13 val_main_v12 val_main_v11 Mlp.edgeNet
  generalize val_main_v10 (F := Ideal) x0 x1 = xrow
  rw [concatArr (rfl : 256 = 128 + 128) xrow x2, hlayerArr D1 rfl rfl D1_lhs D1_rhs, hlayerArr D1 rfl rfl D1_lhs D1_rhs,
    hlayerArr D1 rfl rfl D1_lhs D1_rhs, relu_eq, relu_eq]

/-! ## The scatter-mean between the two networks, as one function -/

/-- The mean messages as a function of the message array `h` and the edge list `x1`: the messages scatter-added to
    their destination nodes (row 1 of the edge list) into zeros, divided by the per-node edge counts clamped below at
    one and broadcast over the 256 columns.  Never opened. -/
def mid (h : FVec Ideal S640000x256 .f32) (x1 : (⟨S2x640000, .i32⟩ : BufTy).Contents (Elt Ideal)) : FVec Ideal S40000x256 .f32 :=
  Host.divf (F := Ideal) (φ := .f32) (Host.scatterAdd (F := Ideal) (φ := .f32) scatter_S40000x256_S640000x1_S640000x256_1_0_0_1
    (val_main_v26 (F := Ideal)) (val_main_v27 (F := Ideal) x1) h) (val_main_v36 (F := Ideal) x1)

theorem mean_eq (x0 : (⟨S40000x128, .f32⟩ : BufTy).Contents (Elt Ideal)) (x1 : (⟨S2x640000, .i32⟩ : BufTy).Contents (Elt Ideal))
    (x2 : (⟨S640000x128, .f32⟩ : BufTy).Contents (Elt Ideal)) (x5 : (⟨S256x256, .f32⟩ : BufTy).Contents (Elt Ideal))
    (x6 : (⟨S256, .f32⟩ : BufTy).Contents (Elt Ideal)) (x7 : (⟨S256x256, .f32⟩ : BufTy).Contents (Elt Ideal))
    (x8 : (⟨S256, .f32⟩ : BufTy).Contents (Elt Ideal)) (x9 : (⟨S256x256, .f32⟩ : BufTy).Contents (Elt Ideal))
    (x10 : (⟨S256, .f32⟩ : BufTy).Contents (Elt Ideal)) :
    val_main_v37 (F := Ideal) x0 x1 x2 x5 x6 x7 x8 x9 x10 = mid (val_main_v25 (F := Ideal) x0 x1 x2 x5 x6 x7 x8 x9 x10) x1 := rfl

/-! ## The result -/

theorem node_eq (x0 : (⟨S40000x128, .f32⟩ : BufTy).Contents (Elt Ideal)) (x1 : (⟨S2x640000, .i32⟩ : BufTy).Contents (Elt Ideal))
    (x2 : (⟨S640000x128, .f32⟩ : BufTy).Contents (Elt Ideal)) (x5 : (⟨S256x256, .f32⟩ : BufTy).Contents (Elt Ideal))
    (x6 : (⟨S256, .f32⟩ : BufTy).Contents (Elt Ideal)) (x7 : (⟨S256x256, .f32⟩ : BufTy).Contents (Elt Ideal))
    (x8 : (⟨S256, .f32⟩ : BufTy).Contents (Elt Ideal)) (x9 : (⟨S256x256, .f32⟩ : BufTy).Contents (Elt Ideal))
    (x10 : (⟨S256, .f32⟩ : BufTy).Contents (Elt Ideal)) (x11 : (⟨S384x256, .f32⟩ : BufTy).Contents (Elt Ideal))
    (x12 : (⟨S256, .f32⟩ : BufTy).Contents (Elt Ideal)) (x13 : (⟨S256x128, .f32⟩ : BufTy).Contents (Elt Ideal))
    (x14 : (⟨S128, .f32⟩ : BufTy).Contents (Elt Ideal)) :
    val_main_v47 (F := Ideal) x0 x1 x2 x5 x6 x7 x8 x9 x10 x11 x12 x13 x14
      = Mlp.nodeNet (R := 40000) x0 (val_main_v37 (F := Ideal) x0 x1 x2 x5 x6 x7 x8 x9 x10) x11 x12 x13 x14 := by
  unfold val_main_v47 val_main_v46 val_main_v45 val_main_v44 val_main_v43 val_main_call2_v0 val_main_call2_cst val_main_v42
    val_main_v41 val_main_v40 val_main_v39 val_main_v38 Mlp.nodeNet
  generalize val_main_v37 (F := Ideal) x0 x1 x2 x5 x6 x7 x8 x9 x10 = agg
  rw [concatArr (rfl : 384 = 128 + 256) x0 agg, hlayerArr D2 rfl rfl D2_lhs D2_rhs, hlayerArr D3 rfl rfl D3_lhs D3_rhs, relu_eq]

/-- THE REFERENCE'S RESULT: the node network of the node features and the mean of the edge network's messages. -/
theorem result_eq (x0 : (⟨S40000x128, .f32⟩ : BufTy).Contents (Elt Ideal)) (x1 : (⟨S2x640000, .i32⟩ : BufTy).Contents (Elt Ideal))
    (x2 : (⟨S640000x128, .f32⟩ : BufTy).Contents (Elt Ideal)) (x5 : (⟨S256x256, .f32⟩ : BufTy).Contents (Elt Ideal))
    (x6 : (⟨S256, .f32⟩ : BufTy).Contents (Elt Ideal)) (x7 : (⟨S256x256, .f32⟩ : BufTy).Contents (Elt Ideal))
    (x8 : (⟨S256, .f32⟩ : BufTy).Contents (Elt Ideal)) (x9 : (⟨S256x256, .f32⟩ : BufTy).Contents (Elt Ideal))
    (x10 : (⟨S256, .f32⟩ : BufTy).Contents (Elt Ideal)) (x11 : (⟨S384x256, .f32⟩ : BufTy).Contents (Elt Ideal))
    (x12 : (⟨S256, .f32⟩ : BufTy).Contents (Elt Ideal)) (x13 : (⟨S256x128, .f32⟩ : BufTy).Contents (Elt Ideal))
    (x14 : (⟨S128, .f32⟩ : BufTy).Contents (Elt Ideal)) :
    val_main_v47 (F := Ideal) x0 x1 x2 x5 x6 x7 x8 x9 x10 x11 x12 x13 x14
      = Mlp.nodeNet (R := 40000) x0 (mid (Mlp.edgeNet (R := 640000) (val_main_v10 (F := Ideal) x0 x1) x2 x5 x6 x7 x8 x9 x10) x1)
          x11 x12 x13 x14 := by
  rw [node_eq, mean_eq, edge_eq]

end Cert.ReferenceIdeal.Whole

end
-- ==== Proof.KernelValue.lean ====
/-
  THE KERNEL'S RESULT, READ BACK THROUGH THE FOUR SEGMENTS.  The last boundary's contents at the result array are what
  the node region leaves there: the node network (NodeBlocks.lean) of the arrays the region is entered with.  Those are
  what the second host stretch computes from the edge region's exit contents: the node features and three weights as
  launched (narrowed, which is no change), and the mean messages — the scatter-mean chain `mid` of the message array and
  the edge list.  The message array is what the edge region leaves: the edge network (EdgeBlocks.lean) of the arrays the
  first host stretch computes from the launch memory — the gathered source rows, the edge features and six weights as
  launched.  The host chains the two programs share (the gather of the source rows, the destination column, the
  scatter-mean) are named by the reference's own stages and never opened.
-/
import proofs.«177631_j13486197310233_1_alg».proof.Proof.KernelLaunch
import proofs.«177631_j13486197310233_1_alg».proof.Proof.EdgeBlocks
import proofs.«177631_j13486197310233_1_alg».proof.Proof.NodeBlocks
import proofs.«177631_j13486197310233_1_alg».proof.Proof.RefValue

set_option maxRecDepth 16384

noncomputable section

namespace Cert.KernelIdeal.Whole

open Cert.KernelIdeal Cert.KernelIdeal.Gen
open Idealize.ShloMosaic Idealize.ShloMosaic.TcCoe Idealize.ShloMosaic.StableHlo
open Idealize.SL.Sem

variable (m : (ℓ : Loc nD τ sig) → Buf (Elt Ideal) ℓ) (ρ : Dev nD → PrngReg)

/-! ## What the edge region is entered with: the first host stretch from the launch memory -/

theorem V1_v10 (c : Dev nD) : V1 m ρ c main_v10
    = Cert.ReferenceIdeal.Read.val_main_v10 (F := Ideal) (m ((c : Thread nD τ).loc main_arg0)) (m ((c : Thread nD τ).loc main_arg1)) := by
  show StableHlo.after hostOps0 (W0 m ρ c) (Proc.devRef .tc main_v10) = _
  after_results
  rfl

theorem W1_v3 (c : Dev nD) : W1 m ρ c (Proc.devRef .tc main_v3)
    = Cert.ReferenceIdeal.Read.val_main_v3 (F := Ideal) (m ((c : Thread nD τ).loc main_arg1)) := by
  show StableHlo.after hostOps0 (W0 m ρ c) (Proc.devRef .tc main_v3) = _
  after_results
  rfl

theorem V1_arg2 (c : Dev nD) : V1 m ρ c main_arg2 = m ((c : Thread nD τ).loc main_arg2) := by
  show StableHlo.after hostOps0 (W0 m ρ c) (Proc.devRef .tc main_arg2) = _
  after_results
theorem V1_v11 (c : Dev nD) : (V1 m ρ c main_v11 : S256x256.Idx → EReal) = m ((c : Thread nD τ).loc main_arg5) := by
  show StableHlo.after hostOps0 (W0 m ρ c) (Proc.devRef .tc main_v11) = _
  after_results
  rfl
theorem V1_arg6 (c : Dev nD) : V1 m ρ c main_arg6 = m ((c : Thread nD τ).loc main_arg6) := by
  show StableHlo.after hostOps0 (W0 m ρ c) (Proc.devRef .tc main_arg6) = _
  after_results
theorem V1_v12 (c : Dev nD) : (V1 m ρ c main_v12 : S256x256.Idx → EReal) = m ((c : Thread nD τ).loc main_arg7) := by
  show StableHlo.after hostOps0 (W0 m ρ c) (Proc.devRef .tc main_v12) = _
  after_results
  rfl
theorem V1_arg8 (c : Dev nD) : V1 m ρ c main_arg8 = m ((c : Thread nD τ).loc main_arg8) := by
  show StableHlo.after hostOps0 (W0 m ρ c) (Proc.devRef .tc main_arg8) = _
  after_results
theorem V1_v13 (c : Dev nD) : (V1 m ρ c main_v13 : S256x256.Idx → EReal) = m ((c : Thread nD τ).loc main_arg9) := by
  show StableHlo.after hostOps0 (W0 m ρ c) (Proc.devRef .tc main_v13) = _
  after_results
  rfl
theorem V1_arg10 (c : Dev nD) : V1 m ρ c main_arg10 = m ((c : Thread nD τ).loc main_arg10) := by
  show StableHlo.after hostOps0 (W0 m ρ c) (Proc.devRef .tc main_arg10) = _
  after_results
theorem W1_arg0 (c : Dev nD) : W1 m ρ c (Proc.devRef .tc main_arg0) = m ((c : Thread nD τ).loc main_arg0) := by
  show StableHlo.after hostOps0 (W0 m ρ c) (Proc.devRef .tc main_arg0) = _
  after_results
theorem W1_arg1 (c : Dev nD) : W1 m ρ c (Proc.devRef .tc main_arg1) = m ((c : Thread nD τ).loc main_arg1) := by
  show StableHlo.after hostOps0 (W0 m ρ c) (Proc.devRef .tc main_arg1) = _
  after_results
theorem W1_arg11 (c : Dev nD) : W1 m ρ c (Proc.devRef .tc main_arg11) = m ((c : Thread nD τ).loc main_arg11) := by
  show StableHlo.after hostOps0 (W0 m ρ c) (Proc.devRef .tc main_arg11) = _
  after_results
theorem W1_arg12 (c : Dev nD) : W1 m ρ c (Proc.devRef .tc main_arg12) = m ((c : Thread nD τ).loc main_arg12) := by
  show StableHlo.after hostOps0 (W0 m ρ c) (Proc.devRef .tc main_arg12) = _
  after_results
theorem W1_arg13 (c : Dev nD) : W1 m ρ c (Proc.devRef .tc main_arg13) = m ((c : Thread nD τ).loc main_arg13) := by
  show StableHlo.after hostOps0 (W0 m ρ c) (Proc.devRef .tc main_arg13) = _
  after_results
theorem W1_arg14 (c : Dev nD) : W1 m ρ c (Proc.devRef .tc main_arg14) = m ((c : Thread nD τ).loc main_arg14) := by
  show StableHlo.after hostOps0 (W0 m ρ c) (Proc.devRef .tc main_arg14) = _
  after_results

/-! ## What the edge region leaves -/

/-- The message array: the edge network of the gathered source rows, the edge features and the first six weights. -/
abbrev Msg (c : Dev nD) : S640000x256.Idx → EReal :=
  Mlp.edgeNet (R := 640000)
    (Cert.ReferenceIdeal.Read.val_main_v10 (F := Ideal) (m ((c : Thread nD τ).loc main_arg0)) (m ((c : Thread nD τ).loc main_arg1)))
    (m ((c : Thread nD τ).loc main_arg2)) (m ((c : Thread nD τ).loc main_arg5)) (m ((c : Thread nD τ).loc main_arg6))
    (m ((c : Thread nD τ).loc main_arg7)) (m ((c : Thread nD τ).loc main_arg8)) (m ((c : Thread nD τ).loc main_arg9))
    (m ((c : Thread nD τ).loc main_arg10))

theorem W2_v14 (c : Dev nD) : W2 m ρ c (Proc.devRef .tc main_v14) = Msg m c := by
  refine (W2_arr m ρ c 8).trans ((EdgeBlocks.final (V1 m ρ) c).trans ?_)
  show Mlp.edgeNet (R := 640000) (V1 m ρ c main_v10) (V1 m ρ c main_arg2) (V1 m ρ c main_v11) (V1 m ρ c main_arg6)
    (V1 m ρ c main_v12) (V1 m ρ c main_arg8) (V1 m ρ c main_v13) (V1 m ρ c main_arg10) = _
  rw [V1_v10, V1_arg2, V1_v11, V1_arg6, V1_v12, V1_arg8, V1_v13, V1_arg10]

/-- The buffers the edge region does not write keep what the first host stretch left. -/
theorem W2_v3 (c : Dev nD) : W2 m ρ c (Proc.devRef .tc main_v3)
    = Cert.ReferenceIdeal.Read.val_main_v3 (F := Ideal) (m ((c : Thread nD τ).loc main_arg1)) :=
  (W2_of_ne m ρ c main_v3 (by decide)).trans (W1_v3 m ρ c)
theorem W2_arg0 (c : Dev nD) : W2 m ρ c (Proc.devRef .tc main_arg0) = m ((c : Thread nD τ).loc main_arg0) :=
  (W2_of_ne m ρ c main_arg0 (by decide)).trans (W1_arg0 m ρ c)
theorem W2_arg11 (c : Dev nD) : W2 m ρ c (Proc.devRef .tc main_arg11) = m ((c : Thread nD τ).loc main_arg11) :=
  (W2_of_ne m ρ c main_arg11 (by decide)).trans (W1_arg11 m ρ c)
theorem W2_arg12 (c : Dev nD) : W2 m ρ c (Proc.devRef .tc main_arg12) = m ((c : Thread nD τ).loc main_arg12) :=
  (W2_of_ne m ρ c main_arg12 (by decide)).trans (W1_arg12 m ρ c)
theorem W2_arg13 (c : Dev nD) : W2 m ρ c (Proc.devRef .tc main_arg13) = m ((c : Thread nD τ).loc main_arg13) :=
  (W2_of_ne m ρ c main_arg13 (by decide)).trans (W1_arg13 m ρ c)
theorem W2_arg14 (c : Dev nD) : W2 m ρ c (Proc.devRef .tc main_arg14) = m ((c : Thread nD τ).loc main_arg14) :=
  (W2_of_ne m ρ c main_arg14 (by decide)).trans (W1_arg14 m ρ c)

/-! ## What the node region is entered with: the second host stretch from the edge region's exit -/

theorem V3_arg0 (c : Dev nD) : V3 m ρ c main_arg0 = m ((c : Thread nD τ).loc main_arg0) := by
  show StableHlo.after hostOps1 (W2 m ρ c) (Proc.devRef .tc main_arg0) = _
  after_results
  exact W2_arg0 m ρ c
theorem V3_v27 (c : Dev nD) : (V3 m ρ c main_v27 : S384x256.Idx → EReal) = m ((c : Thread nD τ).loc main_arg11) := by
  show StableHlo.after hostOps1 (W2 m ρ c) (Proc.devRef .tc main_v27) = _
  after_results
  rw [W2_arg11]
  rfl
theorem V3_arg12 (c : Dev nD) : V3 m ρ c main_arg12 = m ((c : Thread nD τ).loc main_arg12) := by
  show StableHlo.after hostOps1 (W2 m ρ c) (Proc.devRef .tc main_arg12) = _
  after_results
  exact W2_arg12 m ρ c
theorem V3_v28 (c : Dev nD) : (V3 m ρ c main_v28 : S256x128.Idx → EReal) = m ((c : Thread nD τ).loc main_arg13) := by
  show StableHlo.after hostOps1 (W2 m ρ c) (Proc.devRef .tc main_v28) = _
  after_results
  rw [W2_arg13]
  rfl
theorem V3_arg14 (c : Dev nD) : V3 m ρ c main_arg14 = m ((c : Thread nD τ).loc main_arg14) := by
  show StableHlo.after hostOps1 (W2 m ρ c) (Proc.devRef .tc main_arg14) = _
  after_results
  exact W2_arg14 m ρ c

/-- The mean messages: the scatter-mean chain of the message array and the edge list. -/
theorem V3_v26 (c : Dev nD) : V3 m ρ c main_v26
    = Cert.ReferenceIdeal.Whole.mid (Msg m c) (m ((c : Thread nD τ).loc main_arg1)) := by
  show StableHlo.after hostOps1 (W2 m ρ c) (Proc.devRef .tc main_v26) = _
  after_results
  rw [W2_v14, W2_v3]
  rfl

/-! ## The result -/

/-- The result array at the last boundary. -/
abbrev Result (c : Dev nD) : S40000x128.Idx → EReal :=
  Mlp.nodeNet (R := 40000) (m ((c : Thread nD τ).loc main_arg0))
    (Cert.ReferenceIdeal.Whole.mid (Msg m c) (m ((c : Thread nD τ).loc main_arg1)))
    (m ((c : Thread nD τ).loc main_arg11)) (m ((c : Thread nD τ).loc main_arg12)) (m ((c : Thread nD τ).loc main_arg13))
    (m ((c : Thread nD τ).loc main_arg14))

theorem W4_v29 (c : Dev nD) : W4 m ρ c (Proc.devRef .tc main_v29) = Result m c := by
  refine (W4_arr m ρ c 6).trans ((NodeBlocks.final (V3 m ρ) c).trans ?_)
  show Mlp.nodeNet (R := 40000) (V3 m ρ c main_arg0) (V3 m ρ c main_v26) (V3 m ρ c main_v27) (V3 m ρ c main_arg12)
    (V3 m ρ c main_v28) (V3 m ρ c main_arg14) = _
  rw [V3_arg0, V3_v26, V3_v27, V3_arg12, V3_v28, V3_arg14]

/-- THE KERNEL'S RUN: every weakly fair execution terminates, nothing faulting, with the result array at the node
    network of the node features and the mean of the edge network's messages, and the arguments as launched. -/
theorem run : θ_run defs (onTc (τ := τ) (main (F := Ideal))) ⟨m, fun _ => 0, ρ⟩ (fun r => ∀ c : Dev nD,
      r.2.mem ((c.tc : Thread nD τ).loc main_v29) = Result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
      ⟨(h c _ (mem_uc main_v29 (by decide))).trans (W4_v29 m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c),
       (h c _ (mem_uc main_arg14 (by decide))).trans (W4_main_arg14 m ρ c)⟩)
    (run_boundary m ρ)

end Cert.KernelIdeal.Whole

end
-- ==== Proof.lean ====
/-
  A message-passing layer on a graph of 40000 nodes and 640000 edges: for every edge the source node's features and the
  edge's own are sent through a three-layer network; the messages are averaged at their destination nodes; and every
  node's features, beside that mean, are sent through a two-layer network.  The kernel computes the two networks block by
  block (160 blocks of 4000 edges, 20 blocks of 2000 nodes) with every weight narrowed to a short format first, and leaves
  the gather of the source rows and the scatter-mean to the host, exactly as the reference spells them.

  Over the extended reals the two programs compute the same function.  Narrowing a number to a shorter format is no change;
  a matrix product into a zero accumulator is the `dot_general`'s sum over the same contracted axis, which each block holds
  whole, so no sum is split or reordered; and both networks are computed row by row, so a block of rows of the result is
  the network of the same rows of the operands (Proof/Mlp.lean).  No property of the inputs is used: the precondition
  is never opened.

  Proof/KernelLaunch.lean runs the kernel's program to its last boundary; Proof/EdgeBody.lean and Proof/NodeBody.lean read
  the two kernel bodies; Proof/EdgeBlocks.lean and Proof/NodeBlocks.lean pass from blocks to arrays; Proof/KernelValue.lean
  reads the result back through the host stretches; Proof/RefValue.lean reads the reference.  The scatter-mean, the gather
  and the index arithmetic before it are the same host operations in both programs and are never opened.
-/
import proofs.«177631_j13486197310233_1_alg».proof.Defs
import proofs.«177631_j13486197310233_1_alg».proof.Proof.Gen.Kernel
import proofs.«177631_j13486197310233_1_alg».proof.Proof.Gen.Kernel.Skeleton
import proofs.«177631_j13486197310233_1_alg».proof.Proof.Gen.Kernel.Launch
import proofs.«177631_j13486197310233_1_alg».proof.Proof.Gen.Kernel.Points
import proofs.«177631_j13486197310233_1_alg».proof.Proof.Gen.Kernel.Frame
import proofs.«177631_j13486197310233_1_alg».proof.Proof.Gen.KernelIdeal
import proofs.«177631_j13486197310233_1_alg».proof.Proof.Gen.KernelIdeal.Skeleton
import proofs.«177631_j13486197310233_1_alg».proof.Proof.Gen.KernelIdeal.Launch
import proofs.«177631_j13486197310233_1_alg».proof.Proof.Gen.KernelIdeal.Points
import proofs.«177631_j13486197310233_1_alg».proof.Proof.Gen.KernelIdeal.Frame
import proofs.«177631_j13486197310233_1_alg».proof.Proof.Gen.ReferenceIdeal
import proofs.«177631_j13486197310233_1_alg».proof.Proof.Gen.ReferenceIdeal.Run
import proofs.«177631_j13486197310233_1_alg».proof.Proof.Gen.ReferenceIdeal.Read
import proofs.«177631_j13486197310233_1_alg».proof.Proof.Gen.Pre_finite_inputs
import proofs.«177631_j13486197310233_1_alg».proof.Proof.KernelValue
import proofs.«177631_j13486197310233_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_k : Cert.frame_Kernel := fun m ρ _ => Cert.Kernel.Gen.frame m ρ
/-- So does the idealized kernel. -/
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments, both idealized programs end with the node network of the node features and
    the mean of the edge network's messages. -/
theorem algebraic : Cert.algebraic_KernelIdeal_ReferenceIdeal := by
  intro m ρ m' ρ' _ hagree
  refine ⟨fun c => Cert.KernelIdeal.Whole.Result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, -, -, e5, e6, e7, e8, e9, e10, e11, e12, e13, e14⟩ := hagree c
  rw [Cert.ReferenceIdeal.Read.val_main_v47_eq, Cert.ReferenceIdeal.Whole.result_eq, e0, e1, e2, e5, e6, e7, e8, e9, e10, e11,
    e12, e13, e14]

theorem claim : Cert.Claim := ⟨Cert.Kernel.Gen.facts, Cert.KernelIdeal.Gen.facts, Cert.ReferenceIdeal.Gen.facts,
  Cert.Pre_finite_inputs.Gen.facts, frame_k, frame_ki, frame_ri, preserves, algebraic⟩

end Cert.Proof

end
